-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S1024x512 : Shape := ⟨2, ![1024, 512]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096x1024 .f32) (main_arg8 : FVec F S1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096x512 .f32) (main_arg5 : FVec F S1024x4096 .f32) (main_arg6 : FVec F S1024x1024 .f32) (main_arg7 : FVec F S4096x1024 .f32) (main_arg8 : FVec F S1024 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x1024 .f32) (main_arg2 : FVec F S4096x1024 .f32) (main_arg3 : FVec F S1024x512 .f32) (main_arg4 : FVec F S4096x512 .f32) (main_arg5 : FVec F S1024x4096 .f32) (main_arg6 : FVec F S1024x1024 .f32) (main_arg7 : FVec F S4096x1024 .f32) (main_arg8 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_v13 main_v16
-- ==== Kernel.lean ====
abbrev S4096x512 : Shape := ⟨2, ![4096, 512]⟩
abbrev S4096x1024 : Shape := ⟨2, ![4096, 1024]⟩
abbrev S1024x512 : Shape := ⟨2, ![1024, 512]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩
abbrev S4096x5120 : Shape := ⟨2, ![4096, 5120]⟩
abbrev S128x512 : Shape := ⟨2, ![128, 512]⟩
abbrev S128x1024 : Shape := ⟨2, ![128, 1024]⟩
abbrev S128x5120 : Shape := ⟨2, ![128, 5120]⟩
abbrev S128x4096 : Shape := ⟨2, ![128, 4096]⟩
abbrev S128 : Shape := ⟨1, ![128]⟩
abbrev S128x1 : Shape := ⟨2, ![128, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S1024x4096, .f32⟩
  | .hbm, ⟨6, _⟩ => ⟨S1024x1024, .f32⟩
  | .hbm, ⟨7, _⟩ => ⟨S4096x1024, .f32⟩
  | .hbm, ⟨8, _⟩ => ⟨S1024, .f32⟩
  | .hbm, ⟨9, _⟩ => ⟨S1x1024, .f32⟩
  | .hbm, ⟨10, _⟩ => ⟨S4096x512, .bf16⟩
  | .hbm, ⟨11, _⟩ => ⟨S4096x1024, .bf16⟩
  | .hbm, ⟨12, _⟩ => ⟨S1024x4096, .bf16⟩
  | .hbm, ⟨13, _⟩ => ⟨S1024x512, .bf16⟩
  | .hbm, ⟨14, _⟩ => ⟨S1024x1024, .bf16⟩
  | .hbm, ⟨15, _⟩ => ⟨S4096x5120, .f32⟩
  | .hbm, ⟨16, _⟩ => ⟨S4096x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S4096x512, .bf16⟩
  | .local _ .vmem, ⟨8, _⟩ => ⟨S4096x1024, .bf16⟩
  | .local _ .vmem, ⟨9, _⟩ => ⟨S1024x4096, .bf16⟩
  | .local _ .vmem, ⟨10, _⟩ => ⟨S1024x512, .bf16⟩
  | .local _ .vmem, ⟨11, _⟩ => ⟨S1024x1024, .bf16⟩
  | .local _ .vmem, ⟨12, _⟩ => ⟨S128x5120, .f32⟩
  | .local _ .vmem, ⟨13, _⟩ => ⟨S128x5120, .f32⟩
  | .local _ .vmem, ⟨14, _⟩ => ⟨S128x1024, .f32⟩
  | .local _ .vmem, ⟨15, _⟩ => ⟨S128x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x5120 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1024_S1x1024 : S1024.ShapeCasts S1x1024
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S128x4096_S128 : S128x4096.Reduces [1] S128
  shapeCasts_S128_S128x1 : S128.ShapeCasts S128x1
  broadcasts_S128x1_S128x4096 : S128x1.Broadcasts S128x4096
  reduces_S128x1024_S128 : S128x1024.Reduces [1] S128
  broadcasts_S128x1_S128x1024 : S128x1.Broadcasts S128x1024
  broadcasts_S1x1024_S128x1024 : S1x1024.Broadcasts S128x1024
  inb_S128x5120_S128x1024_0_0 : ∀ a, (![0, 0] : Fin 2 → Nat) a + S128x1024.size a ≤ S128x5120.size a
  inb_S128x5120_S128x4096_0_1024 : ∀ a, (![0, 1024] : Fin 2 → Nat) a + S128x4096.size a ≤ S128x5120.size a
  h_S128x4096 : 0 < S128x4096.numel
  dot_S128x512_S4096x512_S128x4096_1_1_0_0_n_n_wf : DotDims.WF S128x512 S4096x512 S128x4096 [1] [1] [0] [0] [] []
  dot_S128x1024_S4096x1024_S128x4096_1_1_0_0_n_n_wf : DotDims.WF S128x1024 S4096x1024 S128x4096 [1] [1] [0] [0] [] []
  dot_S128x512_S1024x512_S128x1024_1_1_0_0_n_n_wf : DotDims.WF S128x512 S1024x512 S128x1024 [1] [1] [0] [0] [] []
  dot_S128x1024_S1024x1024_S128x1024_1_1_0_0_n_n_wf : DotDims.WF S128x1024 S1024x1024 S128x1024 [1] [1] [0] [0] [] []
  dot_S128x4096_S1024x4096_S128x1024_1_1_0_0_n_n_wf : DotDims.WF S128x4096 S1024x4096 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .bf16 = 32 ∨ (Rect.block (s := S4096x512) S4096x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x5120.size a ≤ S4096x5120.size a
  hwx0_9 : ∀ i : grid0.Coords, EltTy.bits .f32 = 32 ∨ (Rect.block (s := S4096x5120) S128x5120.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S128x5120.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S1024x512 : Shape := ⟨2, ![1024, 512]⟩
abbrev S1024x4096 : Shape := ⟨2, ![1024, 4096]⟩
abbrev S1024x1024 : Shape := ⟨2, ![1024, 1024]⟩
abbrev S1024 : Shape := ⟨1, ![1024]⟩
abbrev S512x4096 : Shape := ⟨2, ![512, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S1x1024 : Shape := ⟨2, ![1, 1024]⟩
abbrev S4096x5120 : Shape := ⟨2, ![4096, 5120]⟩

abbrev nBuf : Space → Nat
  | .hbm => 82
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S1024x4096, .f32⟩
  | .hbm, ⟨6, _⟩ => ⟨S1024x1024, .f32⟩
  | .hbm, ⟨7, _⟩ => ⟨S4096x1024, .f32⟩
  | .hbm, ⟨8, _⟩ => ⟨S1024, .f32⟩
  | .hbm, ⟨9, _⟩ => ⟨S512x4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S512x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x5120, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  transposes_S4096x512_S512x4096_1_0 : S4096x512.Transposes [1, 0] S512x4096
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S1024x512_S512x1024_1_0 : S1024x512.Transposes [1, 0] S512x1024
  bcast_S_S4096x1024 : S_.BroadcastsInDim S4096x1024 (![] : Fin 0 → Fin S4096x1024.rank)
  transposes_S1024x1024_S1024x1024_1_0 : S1024x1024.Transposes [1, 0] S1024x1024
  transposes_S1024x4096_S4096x1024_1_0 : S1024x4096.Transposes [1, 0] S4096x1024
  reducesTo_S4096x1024_S4096_d1 : S4096x1024.ReducesTo [1] S4096
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  concatenates_S4096x1024_S4096x4096_S4096x5120_d1 : Shape.Concatenates [S4096x1024, S4096x4096] S4096x5120 1
  dot_S4096x512_S512x4096_S4096x4096_1_0_0_1_n_n_wf : DotDims.WF S4096x512 S512x4096 S4096x4096 [1] [0] [0] [1] [] []
  dot_S4096x1024_S1024x4096_S4096x4096_1_0_0_1_n_n_wf : DotDims.WF S4096x1024 S1024x4096 S4096x4096 [1] [0] [0] [1] [] []
  dot_S4096x512_S512x1024_S4096x1024_1_0_0_1_n_n_wf : DotDims.WF S4096x512 S512x1024 S4096x1024 [1] [0] [0] [1] [] []
  dot_S4096x1024_S1024x1024_S4096x1024_1_0_0_1_n_n_wf : DotDims.WF S4096x1024 S1024x1024 S4096x1024 [1] [0] [0] [1] [] []
  dot_S4096x4096_S4096x1024_S4096x1024_1_0_0_1_n_n_wf : DotDims.WF S4096x4096 S4096x1024 S4096x1024 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibCanonAt.lean ====
/-
  What a list of stores through unit-stride rectangles leaves, read at an index given by its coordinates: under the
  last store's rectangle the last payload at the coordinates inside the rectangle; off it (left of it or right of it
  on some axis) what the earlier stores left.
-/
import Idealize.ShloMosaic.Lib.Pipeline.Value

noncomputable section

namespace Cert.CanonAt

open Idealize.ShloMosaic

variable {Val : EltTy → Type} {S : Shape} {e : EltTy} [∀ e, Nonempty (Val e)]

/-- Under the last store's rectangle: `y` sits at `off + x`, so the contents there are the payload at `x`. -/
theorem canon_cons_unit_apply {off size : Fin S.rank → Nat} {inb : ∀ a, off a + size a ≤ S.size a}
    (w : (Rect.unit off size inb).shape.Idx → Val e) (L : List (View.Piece Val S e))
    (x : (Rect.unit off size inb).shape.Idx) (y : S.Idx) (hy : ∀ a, (y a).val = off a + (x a).val) :
    View.canon ((⟨Rect.unit off size inb, w⟩ : View.Piece Val S e) :: L) y = w x := by
  have e : y = (Rect.unit off size inb).emb x := funext fun a => Fin.ext (by
    rw [Rect.emb_apply, Rect.off_unit, Rect.stride_unit, Nat.one_mul]; exact hy a)
  rw [e]; exact View.canon_cons_emb _ w L x

/-- Off the last store's rectangle on axis `a`: the contents are what the earlier stores left. -/
theorem canon_cons_unit_skip {off size : Fin S.rank → Nat} {inb : ∀ a, off a + size a ≤ S.size a}
    (w : (Rect.unit off size inb).shape.Idx → Val e) (L : List (View.Piece Val S e)) (y : S.Idx) (a : Fin S.rank)
    (h : (y a).val < off a ∨ off a + size a ≤ (y a).val) :
    View.canon ((⟨Rect.unit off size inb, w⟩ : View.Piece Val S e) :: L) y = View.canon L y :=
  View.canon_cons_of_not_mem _ L (fun hm => by
    have hm' : y ∈ (Rect.unit off size inb).set := hm
    have := (Rect.mem_set_unit (inb := inb)).mp hm' a
    omega)

end Cert.CanonAt

end
-- ==== Proof.KernelOut.lean ====
/-
  What the body leaves in its two output blocks, as values of the loaded blocks.  The hidden-state block holds the
  rectified layer norm (one store of the whole block).  The concatenated block is stored in two pieces: its first
  1024 columns hold the same hidden state, its last 4096 columns the gate.
-/
import proofs.«108395_j41437844472172_2_alg».proof.Proof.Gen.KernelIdeal.Frame
import proofs.«108395_j41437844472172_2_alg».proof.Proof.LibCanonAt
import Idealize.ShloMosaic.Lib.Pipeline.Value
import Idealize.ShloMosaic.Lib.Tactic
import Idealize.ShloMosaic.Lib.ValueIdx

noncomputable section

namespace Cert.KernelIdeal.Out

open Cert.KernelIdeal Cert.KernelIdeal.Gen Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- The hidden state as the body computes it from the loaded blocks: the last payload over the casts of the loads. -/
abbrev hiddenOf (x0 : Vec F S128x512 .f32) (x1 : Vec F S128x1024 .f32) (x2 : Vec F S128x1024 .f32) (x3 : Vec F S1x1024 .f32)
    (x4 : Vec F S4096x512 .bf16) (x5 : Vec F S4096x1024 .bf16) (x6 : Vec F S1024x4096 .bf16) (x7 : Vec F S1024x512 .bf16)
    (x8 : Vec F S1024x1024 .bf16) : Vec F S128x1024 .f32 :=
  k0_pay1 x2 (k0_pay2 x3) (k0_pay3 x0) (k0_pay4 x1) (k0_pay5 x6) (k0_pay6 x7) (k0_pay7 x8) (k0_pay9 x0 x1 x4 x5)
    (constant S128x1024 .f32 0x00000000#32)

/-- The hidden-state block: one store of the whole block. -/
theorem out10 (c : Dev nD) (i : grid0.Coords) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x4096 .bf16) (harg7 : arg7.IsWhole) (arg8 : Memref sig .tc .vmem S1024x512 .bf16) (harg8 : arg8.IsWhole) (arg9 : Memref sig .tc .vmem S1024x1024 .bf16) (harg9 : arg9.IsWhole) (arg10 : Memref sig .tc .vmem S128x5120 .f32) (harg10 : arg10.IsWhole) (arg11 : Memref sig .tc .vmem S128x1024 .f32) (harg11 : arg11.IsWhole)
    (x0 : Vec F S128x512 .f32) (x1 : Vec F S128x1024 .f32) (x2 : Vec F S128x1024 .f32) (x3 : Vec F S1x1024 .f32) (x4 : Vec F S4096x512 .bf16) (x5 : Vec F S4096x1024 .bf16) (x6 : Vec F S1024x4096 .bf16) (x7 : Vec F S1024x512 .bf16) (x8 : Vec F S1024x1024 .bf16) :
    out0_A_10 (F := F) c i arg1 harg1 arg2 harg2 arg3 harg3 arg4 harg4 arg5 harg5 arg6 harg6 arg7 harg7 arg8 harg8 arg9 harg9 arg10 harg10 arg11 harg11 x0 x1 x2 x3 x4 x5 x6 x7 x8 = hiddenOf x0 x1 x2 x3 x4 x5 x6 x7 x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread,
    View.ld_unit_zero (S := S128x512) hz, View.ld_unit_zero (S := S128x1024) hz, View.ld_unit_zero (S := S1x1024) hz,
    View.ld_unit_zero (S := S4096x512) hz, View.ld_unit_zero (S := S4096x1024) hz, View.ld_unit_zero (S := S1024x4096) hz,
    View.ld_unit_zero (S := S1024x512) hz, View.ld_unit_zero (S := S1024x1024) hz]

/-- The concatenated block, last 4096 columns: the gate. -/
theorem out9_gate (c : Dev nD) (i : grid0.Coords) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x4096 .bf16) (harg7 : arg7.IsWhole) (arg8 : Memref sig .tc .vmem S1024x512 .bf16) (harg8 : arg8.IsWhole) (arg9 : Memref sig .tc .vmem S1024x1024 .bf16) (harg9 : arg9.IsWhole) (arg10 : Memref sig .tc .vmem S128x5120 .f32) (harg10 : arg10.IsWhole) (arg11 : Memref sig .tc .vmem S128x1024 .f32) (harg11 : arg11.IsWhole)
    (x0 : Vec F S128x512 .f32) (x1 : Vec F S128x1024 .f32) (x2 : Vec F S128x1024 .f32) (x3 : Vec F S1x1024 .f32) (x4 : Vec F S4096x512 .bf16) (x5 : Vec F S4096x1024 .bf16) (x6 : Vec F S1024x4096 .bf16) (x7 : Vec F S1024x512 .bf16) (x8 : Vec F S1024x1024 .bf16) (p : Fin 128) (q : Fin 5120) (s : Fin 4096)
    (hq : q.val = 1024 + s.val) :
    out0_A_9 (F := F) c i arg1 harg1 arg2 harg2 arg3 harg3 arg4 harg4 arg5 harg5 arg6 harg6 arg7 harg7 arg8 harg8 arg9 harg9 arg10 harg10 arg11 harg11 x0 x1 x2 x3 x4 x5 x6 x7 x8 (ix2 p q) = k0_pay8 x0 x1 x4 x5 (ix2 p s) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread,
    View.ld_unit_zero (S := S128x512) hz, View.ld_unit_zero (S := S128x1024) hz, View.ld_unit_zero (S := S1x1024) hz,
    View.ld_unit_zero (S := S4096x512) hz, View.ld_unit_zero (S := S4096x1024) hz, View.ld_unit_zero (S := S1024x4096) hz,
    View.ld_unit_zero (S := S1024x512) hz, View.ld_unit_zero (S := S1024x1024) hz]
  refine Cert.CanonAt.canon_cons_unit_apply (Val := Elt F) _ _ ?x _ ?hy
  case hy =>
    intro a
    match a with
    | ⟨0, _⟩ => show p.val = 0 + p.val; omega
    | ⟨1, _⟩ => exact hq

/-- The concatenated block, first 1024 columns: the hidden state. -/
theorem out9_hidden (c : Dev nD) (i : grid0.Coords) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S4096x512 .bf16) (harg5 : arg5.IsWhole) (arg6 : Memref sig .tc .vmem S4096x1024 .bf16) (harg6 : arg6.IsWhole) (arg7 : Memref sig .tc .vmem S1024x4096 .bf16) (harg7 : arg7.IsWhole) (arg8 : Memref sig .tc .vmem S1024x512 .bf16) (harg8 : arg8.IsWhole) (arg9 : Memref sig .tc .vmem S1024x1024 .bf16) (harg9 : arg9.IsWhole) (arg10 : Memref sig .tc .vmem S128x5120 .f32) (harg10 : arg10.IsWhole) (arg11 : Memref sig .tc .vmem S128x1024 .f32) (harg11 : arg11.IsWhole)
    (x0 : Vec F S128x512 .f32) (x1 : Vec F S128x1024 .f32) (x2 : Vec F S128x1024 .f32) (x3 : Vec F S1x1024 .f32) (x4 : Vec F S4096x512 .bf16) (x5 : Vec F S4096x1024 .bf16) (x6 : Vec F S1024x4096 .bf16) (x7 : Vec F S1024x512 .bf16) (x8 : Vec F S1024x1024 .bf16) (p : Fin 128) (q : Fin 5120) (h : Fin 1024)
    (hq : q.val = h.val) :
    out0_A_9 (F := F) c i arg1 harg1 arg2 harg2 arg3 harg3 arg4 harg4 arg5 harg5 arg6 harg6 arg7 harg7 arg8 harg8 arg9 harg9 arg10 harg10 arg11 harg11 x0 x1 x2 x3 x4 x5 x6 x7 x8 (ix2 p q) = hiddenOf x0 x1 x2 x3 x4 x5 x6 x7 x8 (ix2 p h) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread,
    View.ld_unit_zero (S := S128x512) hz, View.ld_unit_zero (S := S128x1024) hz, View.ld_unit_zero (S := S1x1024) hz,
    View.ld_unit_zero (S := S4096x512) hz, View.ld_unit_zero (S := S4096x1024) hz, View.ld_unit_zero (S := S1024x4096) hz,
    View.ld_unit_zero (S := S1024x512) hz, View.ld_unit_zero (S := S1024x1024) hz]
  refine (Cert.CanonAt.canon_cons_unit_skip (Val := Elt F) _ _ _ (1 : Fin 2) (Or.inl ?_)).trans ?_
  · show q.val < 1024; rw [hq]; exact h.isLt
  refine Cert.CanonAt.canon_cons_unit_apply (Val := Elt F) _ _ ?x _ ?hy
  case hy =>
    intro a
    match a with
    | ⟨0, _⟩ => show p.val = 0 + p.val; omega
    | ⟨1, _⟩ => show q.val = 0 + h.val; omega

end Cert.KernelIdeal.Out

end
-- ==== Proof.LibDotRow.lean ====
/-
  Matrix products with ONE contracted axis, at the ideal values, read at an output index `(p, s)` as a sum over the
  contracted coordinate — stated for any dimension record between rank-2 shapes, given where the record sends the
  two operand indices (four coordinate facts a literal record proves by unfolding):

  * `matmul_zero_apply`: a `tpu.matmul` into the zero accumulator;
  * `dotGeneral_apply`: the host's `dot_general`.
-/
import Idealize.ShloMosaic.Lib.ValueIdx
import Idealize.ShloMosaic.PureOps.Ideal.Laws

noncomputable section

namespace Cert.DotRow

open Idealize.ShloMosaic Idealize.ShloMosaic.ValueIdx

/-- The two operand indices of a rank-2 product with one contracted axis, at output index `(p, s)` and contracted
    coordinate `k`: the left operand is read at `L p k`, the right at `R s k`. -/
theorem idx_eq {sl sr : Shape} {M N K : ℕ} (D : DotDims sl sr ⟨2, ![M, N]⟩)
    (hr : D.contr.rank = 1) (hs : D.contr.size ⟨0, by omega⟩ = K)
    (L : Fin M → Fin K → sl.Idx) (R : Fin N → Fin K → sr.Idx)
    (hL : ∀ (p : Fin M) (s : Fin N) (q : D.contr.Idx), D.lhsIdx (ix2 p s) q = L p ((contrEquiv1 D K hr hs) q))
    (hR : ∀ (p : Fin M) (s : Fin N) (q : D.contr.Idx), D.rhsIdx (ix2 p s) q = R s ((contrEquiv1 D K hr hs) q))
    {φ₁ φ₂ : FTy} (a : FVec Ideal sl φ₁) (b : FVec Ideal sr φ₂) (p : Fin M) (s : Fin N) :
    (∑ q : D.contr.Idx, a (D.lhsIdx (ix2 p s) q) * b (D.rhsIdx (ix2 p s) q)) = ∑ k : Fin K, a (L p k) * b (R s k) := by
  rw [← Equiv.sum_comp (contrEquiv1 D K hr hs).symm]
  refine Finset.sum_congr rfl fun k _ => ?_
  rw [hL, hR, Equiv.apply_symm_apply]

/-- A `tpu.matmul` into the zero accumulator, read at `(p, s)`. -/
theorem matmul_zero_apply {sl sr : Shape} {M N K : ℕ} (D : DotDims sl sr ⟨2, ![M, N]⟩)
    (hr : D.contr.rank = 1) (hs : D.contr.size ⟨0, by omega⟩ = K)
    (L : Fin M → Fin K → sl.Idx) (R : Fin N → Fin K → sr.Idx)
    (hL : ∀ (p : Fin M) (s : Fin N) (q : D.contr.Idx), D.lhsIdx (ix2 p s) q = L p ((contrEquiv1 D K hr hs) q))
    (hR : ∀ (p : Fin M) (s : Fin N) (q : D.contr.Idx), D.rhsIdx (ix2 p s) q = R s ((contrEquiv1 D K hr hs) q))
    {φ₁ φ₂ : FTy} (prec : Option ContractPrecision) (a : FVec Ideal sl φ₁) (b : FVec Ideal sr φ₂) (p : Fin M) (s : Fin N) :
    matmul D prec a b (constant (F := Ideal) ⟨2, ![M, N]⟩ .f32 0x00000000#32) (ix2 p s) = ∑ k : Fin K, a (L p k) * b (R s k) :=
  (Ideal.matmul_constant_zero_apply D prec a b (ix2 p s)).trans (idx_eq D hr hs L R hL hR a b p s)

/-- The host's `dot_general`, read at `(p, s)`. -/
theorem dotGeneral_apply {sl sr : Shape} {M N K : ℕ} (D : DotDims sl sr ⟨2, ![M, N]⟩)
    (hr : D.contr.rank = 1) (hs : D.contr.size ⟨0, by omega⟩ = K)
    (L : Fin M → Fin K → sl.Idx) (R : Fin N → Fin K → sr.Idx)
    (hL : ∀ (p : Fin M) (s : Fin N) (q : D.contr.Idx), D.lhsIdx (ix2 p s) q = L p ((contrEquiv1 D K hr hs) q))
    (hR : ∀ (p : Fin M) (s : Fin N) (q : D.contr.Idx), D.rhsIdx (ix2 p s) q = R s ((contrEquiv1 D K hr hs) q))
    {φ₁ φ₂ : FTy} (prec : Option ContractPrecision) (sched : HostSchedule) (a : FVec Ideal sl φ₁) (b : FVec Ideal sr φ₂)
    (p : Fin M) (s : Fin N) :
    FloatOps.dotGeneral D prec sched a b (ix2 p s) = ∑ k : Fin K, a (L p k) * b (R s k) :=
  (Ideal.dotGeneral_apply D prec sched a b (ix2 p s)).trans (idx_eq D hr hs L R hL hR a b p s)

end Cert.DotRow

end
-- ==== Proof.KernelDots.lean ====
/-
  The kernel's five matrix products, each contracting the LAST axis of both operands (`lhs @ rhs.T`), read at an
  output index as plain sums.
-/
import proofs.«108395_j41437844472172_2_alg».proof.Proof.Gen.KernelIdeal
import proofs.«108395_j41437844472172_2_alg».proof.Proof.LibDotRow

noncomputable section

namespace Cert.KernelIdeal.Dots

open Cert.KernelIdeal Idealize.ShloMosaic Idealize.ShloMosaic.ValueIdx

/-- Record `dot_S128x512_S4096x512_S128x4096_1_1_0_0_n_n`: the left operand is read at `(p, k)`, the right at `(s, k)`. -/
theorem lhs0_xWis (i : (⟨2, ![128, 4096]⟩ : Shape).Idx) (q : dot_S128x512_S4096x512_S128x4096_1_1_0_0_n_n.contr.Idx) : (dot_S128x512_S4096x512_S128x4096_1_1_0_0_n_n.lhsIdx i q 0).val = (i 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
theorem rhs0_xWis (i : (⟨2, ![128, 4096]⟩ : Shape).Idx) (q : dot_S128x512_S4096x512_S128x4096_1_1_0_0_n_n.contr.Idx) : (dot_S128x512_S4096x512_S128x4096_1_1_0_0_n_n.rhsIdx i q 0).val = (i 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
theorem lhs_xWis (p : Fin 128) (s : Fin 4096) (q : dot_S128x512_S4096x512_S128x4096_1_1_0_0_n_n.contr.Idx) :
    dot_S128x512_S4096x512_S128x4096_1_1_0_0_n_n.lhsIdx (ix2 p s) q = ix2 p ((contrEquiv1 dot_S128x512_S4096x512_S128x4096_1_1_0_0_n_n 512 rfl rfl) q) :=
  funext fun a => Fin.ext (by
    match a with
    | ⟨0, _⟩ => exact lhs0_xWis _ _
    | ⟨1, _⟩ => exact dot_S128x512_S4096x512_S128x4096_1_1_0_0_n_n.lhsIdx_val_of_single rfl (ix2 p s) q)
theorem rhs_xWis (p : Fin 128) (s : Fin 4096) (q : dot_S128x512_S4096x512_S128x4096_1_1_0_0_n_n.contr.Idx) :
    dot_S128x512_S4096x512_S128x4096_1_1_0_0_n_n.rhsIdx (ix2 p s) q = ix2 s ((contrEquiv1 dot_S128x512_S4096x512_S128x4096_1_1_0_0_n_n 512 rfl rfl) q) :=
  funext fun a => Fin.ext (by
    match a with
    | ⟨0, _⟩ => exact rhs0_xWis _ _
    | ⟨1, _⟩ => exact dot_S128x512_S4096x512_S128x4096_1_1_0_0_n_n.rhsIdx_val_of_single rfl (ix2 p s) q)
/-- The product of record `dot_S128x512_S4096x512_S128x4096_1_1_0_0_n_n` into the zero accumulator at `(p, s)`: the sum over `k` of `a (p, k) · b (s, k)`. -/
theorem mm_xWis {φ₁ φ₂ : FTy} (a : FVec Ideal S128x512 φ₁) (b : FVec Ideal S4096x512 φ₂) (p : Fin 128) (s : Fin 4096) :
    matmul dot_S128x512_S4096x512_S128x4096_1_1_0_0_n_n none a b (constant (F := Ideal) ⟨2, ![128, 4096]⟩ .f32 0x00000000#32) (ix2 p s)
      = ∑ k : Fin 512, a (ix2 p k) * b (ix2 s k) :=
  Cert.DotRow.matmul_zero_apply dot_S128x512_S4096x512_S128x4096_1_1_0_0_n_n rfl rfl (fun p k => ix2 p k) (fun s k => ix2 s k) lhs_xWis rhs_xWis none a b p s

/-- Record `dot_S128x1024_S4096x1024_S128x4096_1_1_0_0_n_n`: the left operand is read at `(p, k)`, the right at `(s, k)`. -/
theorem lhs0_hWhs (i : (⟨2, ![128, 4096]⟩ : Shape).Idx) (q : dot_S128x1024_S4096x1024_S128x4096_1_1_0_0_n_n.contr.Idx) : (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem rhs0_hWhs (i : (⟨2, ![128, 4096]⟩ : Shape).Idx) (q : dot_S128x1024_S4096x1024_S128x4096_1_1_0_0_n_n.contr.Idx) : (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem lhs_hWhs (p : Fin 128) (s : Fin 4096) (q : dot_S128x1024_S4096x1024_S128x4096_1_1_0_0_n_n.contr.Idx) :
    dot_S128x1024_S4096x1024_S128x4096_1_1_0_0_n_n.lhsIdx (ix2 p s) q = ix2 p ((contrEquiv1 dot_S128x1024_S4096x1024_S128x4096_1_1_0_0_n_n 1024 rfl rfl) q) :=
  funext fun a => Fin.ext (by
    match a with
    | ⟨0, _⟩ => exact lhs0_hWhs _ _
    | ⟨1, _⟩ => exact dot_S128x1024_S4096x1024_S128x4096_1_1_0_0_n_n.lhsIdx_val_of_single rfl (ix2 p s) q)
theorem rhs_hWhs (p : Fin 128) (s : Fin 4096) (q : dot_S128x1024_S4096x1024_S128x4096_1_1_0_0_n_n.contr.Idx) :
    dot_S128x1024_S4096x1024_S128x4096_1_1_0_0_n_n.rhsIdx (ix2 p s) q = ix2 s ((contrEquiv1 dot_S128x1024_S4096x1024_S128x4096_1_1_0_0_n_n 1024 rfl rfl) q) :=
  funext fun a => Fin.ext (by
    match a with
    | ⟨0, _⟩ => exact rhs0_hWhs _ _
    | ⟨1, _⟩ => exact dot_S128x1024_S4096x1024_S128x4096_1_1_0_0_n_n.rhsIdx_val_of_single rfl (ix2 p s) q)
/-- The product of record `dot_S128x1024_S4096x1024_S128x4096_1_1_0_0_n_n` into the zero accumulator at `(p, s)`: the sum over `k` of `a (p, k) · b (s, k)`. -/
theorem mm_hWhs {φ₁ φ₂ : FTy} (a : FVec Ideal S128x1024 φ₁) (b : FVec Ideal S4096x1024 φ₂) (p : Fin 128) (s : Fin 4096) :
    matmul dot_S128x1024_S4096x1024_S128x4096_1_1_0_0_n_n none a b (constant (F := Ideal) ⟨2, ![128, 4096]⟩ .f32 0x00000000#32) (ix2 p s)
      = ∑ k : Fin 1024, a (ix2 p k) * b (ix2 s k) :=
  Cert.DotRow.matmul_zero_apply dot_S128x1024_S4096x1024_S128x4096_1_1_0_0_n_n rfl rfl (fun p k => ix2 p k) (fun s k => ix2 s k) lhs_hWhs rhs_hWhs none a b p s

/-- Record `dot_S128x512_S1024x512_S128x1024_1_1_0_0_n_n`: the left operand is read at `(p, k)`, the right at `(s, k)`. -/
theorem lhs0_xWih (i : (⟨2, ![128, 1024]⟩ : Shape).Idx) (q : dot_S128x512_S1024x512_S128x1024_1_1_0_0_n_n.contr.Idx) : (dot_S128x512_S1024x512_S128x1024_1_1_0_0_n_n.lhsIdx i q 0).val = (i 0).val := by
  unfold DotDims.lhsIdx
  rw [dif_neg (show ¬(0 : Fin S128x512.rank) ∈ dot_S128x512_S1024x512_S128x1024_1_1_0_0_n_n.lhsBatch by decide), dif_pos (show (0 : Fin S128x512.rank) ∈ dot_S128x512_S1024x512_S128x1024_1_1_0_0_n_n.lhsNonContracting by decide)]
  rfl
theorem rhs0_xWih (i : (⟨2, ![128, 1024]⟩ : Shape).Idx) (q : dot_S128x512_S1024x512_S128x1024_1_1_0_0_n_n.contr.Idx) : (dot_S128x512_S1024x512_S128x1024_1_1_0_0_n_n.rhsIdx i q 0).val = (i 1).val := by
  unfold DotDims.rhsIdx
  rw [dif_neg (show ¬(0 : Fin S1024x512.rank) ∈ dot_S128x512_S1024x512_S128x1024_1_1_0_0_n_n.rhsBatch by decide), dif_pos (show (0 : Fin S1024x512.rank) ∈ dot_S128x512_S1024x512_S128x1024_1_1_0_0_n_n.rhsNonContracting by decide)]
  rfl
theorem lhs_xWih (p : Fin 128) (s : Fin 1024) (q : dot_S128x512_S1024x512_S128x1024_1_1_0_0_n_n.contr.Idx) :
    dot_S128x512_S1024x512_S128x1024_1_1_0_0_n_n.lhsIdx (ix2 p s) q = ix2 p ((contrEquiv1 dot_S128x512_S1024x512_S128x1024_1_1_0_0_n_n 512 rfl rfl) q) :=
  funext fun a => Fin.ext (by
    match a with
    | ⟨0, _⟩ => exact lhs0_xWih _ _
    | ⟨1, _⟩ => exact dot_S128x512_S1024x512_S128x1024_1_1_0_0_n_n.lhsIdx_val_of_single rfl (ix2 p s) q)
theorem rhs_xWih (p : Fin 128) (s : Fin 1024) (q : dot_S128x512_S1024x512_S128x1024_1_1_0_0_n_n.contr.Idx) :
    dot_S128x512_S1024x512_S128x1024_1_1_0_0_n_n.rhsIdx (ix2 p s) q = ix2 s ((contrEquiv1 dot_S128x512_S1024x512_S128x1024_1_1_0_0_n_n 512 rfl rfl) q) :=
  funext fun a => Fin.ext (by
    match a with
    | ⟨0, _⟩ => exact rhs0_xWih _ _
    | ⟨1, _⟩ => exact dot_S128x512_S1024x512_S128x1024_1_1_0_0_n_n.rhsIdx_val_of_single rfl (ix2 p s) q)
/-- The product of record `dot_S128x512_S1024x512_S128x1024_1_1_0_0_n_n` into the zero accumulator at `(p, s)`: the sum over `k` of `a (p, k) · b (s, k)`. -/
theorem mm_xWih {φ₁ φ₂ : FTy} (a : FVec Ideal S128x512 φ₁) (b : FVec Ideal S1024x512 φ₂) (p : Fin 128) (s : Fin 1024) :
    matmul dot_S128x512_S1024x512_S128x1024_1_1_0_0_n_n none a b (constant (F := Ideal) ⟨2, ![128, 1024]⟩ .f32 0x00000000#32) (ix2 p s)
      = ∑ k : Fin 512, a (ix2 p k) * b (ix2 s k) :=
  Cert.DotRow.matmul_zero_apply dot_S128x512_S1024x512_S128x1024_1_1_0_0_n_n rfl rfl (fun p k => ix2 p k) (fun s k => ix2 s k) lhs_xWih rhs_xWih none a b p s

/-- Record `dot_S128x1024_S1024x1024_S128x1024_1_1_0_0_n_n`: the left operand is read at `(p, k)`, the right at `(s, k)`. -/
theorem lhs0_hWhh (i : (⟨2, ![128, 1024]⟩ : Shape).Idx) (q : dot_S128x1024_S1024x1024_S128x1024_1_1_0_0_n_n.contr.Idx) : (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem rhs0_hWhh (i : (⟨2, ![128, 1024]⟩ : Shape).Idx) (q : dot_S128x1024_S1024x1024_S128x1024_1_1_0_0_n_n.contr.Idx) : (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem lhs_hWhh (p : Fin 128) (s : Fin 1024) (q : dot_S128x1024_S1024x1024_S128x1024_1_1_0_0_n_n.contr.Idx) :
    dot_S128x1024_S1024x1024_S128x1024_1_1_0_0_n_n.lhsIdx (ix2 p s) q = ix2 p ((contrEquiv1 dot_S128x1024_S1024x1024_S128x1024_1_1_0_0_n_n 1024 rfl rfl) q) :=
  funext fun a => Fin.ext (by
    match a with
    | ⟨0, _⟩ => exact lhs0_hWhh _ _
    | ⟨1, _⟩ => exact dot_S128x1024_S1024x1024_S128x1024_1_1_0_0_n_n.lhsIdx_val_of_single rfl (ix2 p s) q)
theorem rhs_hWhh (p : Fin 128) (s : Fin 1024) (q : dot_S128x1024_S1024x1024_S128x1024_1_1_0_0_n_n.contr.Idx) :
    dot_S128x1024_S1024x1024_S128x1024_1_1_0_0_n_n.rhsIdx (ix2 p s) q = ix2 s ((contrEquiv1 dot_S128x1024_S1024x1024_S128x1024_1_1_0_0_n_n 1024 rfl rfl) q) :=
  funext fun a => Fin.ext (by
    match a with
    | ⟨0, _⟩ => exact rhs0_hWhh _ _
    | ⟨1, _⟩ => exact dot_S128x1024_S1024x1024_S128x1024_1_1_0_0_n_n.rhsIdx_val_of_single rfl (ix2 p s) q)
/-- The product of record `dot_S128x1024_S1024x1024_S128x1024_1_1_0_0_n_n` into the zero accumulator at `(p, s)`: the sum over `k` of `a (p, k) · b (s, k)`. -/
theorem mm_hWhh {φ₁ φ₂ : FTy} (a : FVec Ideal S128x1024 φ₁) (b : FVec Ideal S1024x1024 φ₂) (p : Fin 128) (s : Fin 1024) :
    matmul dot_S128x1024_S1024x1024_S128x1024_1_1_0_0_n_n none a b (constant (F := Ideal) ⟨2, ![128, 1024]⟩ .f32 0x00000000#32) (ix2 p s)
      = ∑ k : Fin 1024, a (ix2 p k) * b (ix2 s k) :=
  Cert.DotRow.matmul_zero_apply dot_S128x1024_S1024x1024_S128x1024_1_1_0_0_n_n rfl rfl (fun p k => ix2 p k) (fun s k => ix2 s k) lhs_hWhh rhs_hWhh none a b p s

/-- Record `dot_S128x4096_S1024x4096_S128x1024_1_1_0_0_n_n`: the left operand is read at `(p, k)`, the right at `(s, k)`. -/
theorem lhs0_gWsh (i : (⟨2, ![128, 1024]⟩ : Shape).Idx) (q : dot_S128x4096_S1024x4096_S128x1024_1_1_0_0_n_n.contr.Idx) : (dot_S128x4096_S1024x4096_S128x1024_1_1_0_0_n_n.lhsIdx i q 0).val = (i 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
theorem rhs0_gWsh (i : (⟨2, ![128, 1024]⟩ : Shape).Idx) (q : dot_S128x4096_S1024x4096_S128x1024_1_1_0_0_n_n.contr.Idx) : (dot_S128x4096_S1024x4096_S128x1024_1_1_0_0_n_n.rhsIdx i q 0).val = (i 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
theorem lhs_gWsh (p : Fin 128) (s : Fin 1024) (q : dot_S128x4096_S1024x4096_S128x1024_1_1_0_0_n_n.contr.Idx) :
    dot_S128x4096_S1024x4096_S128x1024_1_1_0_0_n_n.lhsIdx (ix2 p s) q = ix2 p ((contrEquiv1 dot_S128x4096_S1024x4096_S128x1024_1_1_0_0_n_n 4096 rfl rfl) q) :=
  funext fun a => Fin.ext (by
    match a with
    | ⟨0, _⟩ => exact lhs0_gWsh _ _
    | ⟨1, _⟩ => exact dot_S128x4096_S1024x4096_S128x1024_1_1_0_0_n_n.lhsIdx_val_of_single rfl (ix2 p s) q)
theorem rhs_gWsh (p : Fin 128) (s : Fin 1024) (q : dot_S128x4096_S1024x4096_S128x1024_1_1_0_0_n_n.contr.Idx) :
    dot_S128x4096_S1024x4096_S128x1024_1_1_0_0_n_n.rhsIdx (ix2 p s) q = ix2 s ((contrEquiv1 dot_S128x4096_S1024x4096_S128x1024_1_1_0_0_n_n 4096 rfl rfl) q) :=
  funext fun a => Fin.ext (by
    match a with
    | ⟨0, _⟩ => exact rhs0_gWsh _ _
    | ⟨1, _⟩ => exact dot_S128x4096_S1024x4096_S128x1024_1_1_0_0_n_n.rhsIdx_val_of_single rfl (ix2 p s) q)
/-- The product of record `dot_S128x4096_S1024x4096_S128x1024_1_1_0_0_n_n` into the zero accumulator at `(p, s)`: the sum over `k` of `a (p, k) · b (s, k)`. -/
theorem mm_gWsh {φ₁ φ₂ : FTy} (a : FVec Ideal S128x4096 φ₁) (b : FVec Ideal S1024x4096 φ₂) (p : Fin 128) (s : Fin 1024) :
    matmul dot_S128x4096_S1024x4096_S128x1024_1_1_0_0_n_n none a b (constant (F := Ideal) ⟨2, ![128, 1024]⟩ .f32 0x00000000#32) (ix2 p s)
      = ∑ k : Fin 4096, a (ix2 p k) * b (ix2 s k) :=
  Cert.DotRow.matmul_zero_apply dot_S128x4096_S1024x4096_S128x1024_1_1_0_0_n_n rfl rfl (fun p k => ix2 p k) (fun s k => ix2 s k) lhs_gWsh rhs_gWsh none a b p s

end Cert.KernelIdeal.Dots

end
-- ==== Proof.LibRowOps.lean ====
/-
  Row-wise layout and reduction lemmas at the ideal values, over literal-rank shapes with the extents as variables.

  * keepdims columns: a length-`a` vector cast to `[a, 1]` and an `[a, 1]` column broadcast along the rows of `[a, b]`,
    each read at an index built from its coordinates;
  * a `vector.multi_reduction` over the last axis of an `[M, N]` array read at row `p`: the sum, or the fold of `max`,
    over the row's `N` entries;
  * the host's one-operand reductions over the last axis, likewise;
  * a `tpu.matmul` into the zero accumulator, and the host's `dot_general`, with ONE contracted axis, read at `(p, s)`
    as the sum over `k` of products, given where the dimension record sends the two operand indices;
  * the fold of `max` from `b` dominates `b`.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## Keepdims columns -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the last axis of a rank-2 array, at a row -/

/-- The index a reduction over axis 1 inserts coordinate `k` into row index `p` at is `(p, k)`. -/
theorem lift_row {M N : ℕ} (h : (⟨2, ![M, N]⟩ : Shape).Reduces [1] ⟨1, ![M]⟩) (p : Fin M) (k : Fin N) :
    h.lift (ix1 p) k = ix2 p k :=
  funext fun a => Fin.ext (by
    match a with
    | ⟨0, _⟩ => rfl
    | ⟨1, _⟩ => rfl)

/-- A `vector.multi_reduction <add>` over the last axis, at row `p`: the sum of the row. -/
theorem multiReduction_add_row {M N : ℕ} (v : FVec Ideal ⟨2, ![M, N]⟩ .f32)
    (h : (⟨2, ![M, N]⟩ : Shape).Reduces [1] ⟨1, ![M]⟩) (hφ : FKind.Formats .f32)
    (hacc : (0x00000000#32 : BitVec 32) = 0x00000000#32) (p : Fin M) :
    multiReduction .add [1] ⟨1, ![M]⟩ v 0x00000000#32 h hφ hacc (ix1 p) = ∑ k : Fin N, v (ix2 p k) := by
  refine (Ideal.multiReduction_add_single v 0x00000000#32 h hφ hacc (ix1 p)).trans ?_
  exact Finset.sum_congr rfl fun k _ => congrArg v (lift_row h p k)

/-- A `vector.multi_reduction <maximumf>` over the last axis, at row `p`: the fold of `max` over the row from the
    accumulator's value. -/
theorem multiReduction_max_row {M N : ℕ} (v : FVec Ideal ⟨2, ![M, N]⟩ .f32)
    (h : (⟨2, ![M, N]⟩ : Shape).Reduces [1] ⟨1, ![M]⟩) (hφ : FKind.Formats .f32)
    (hacc : (0xFF800000#32 : BitVec 32) = 0xFF800000#32) (p : Fin M) :
    multiReduction .maximumf [1] ⟨1, ![M]⟩ v 0xFF800000#32 h hφ hacc (ix1 p)
      = (Finset.univ : Finset (Fin N)).fold max (Ideal.ofBits .f32 0xFF800000#32) (fun k => v (ix2 p k)) := by
  refine (Ideal.multiReduction_maximumf_single v 0xFF800000#32 h hφ hacc (ix1 p)).trans ?_
  have e : (v ∘ h.lift (ix1 p)) = fun k : Fin N => v (ix2 p k) := funext fun k => congrArg v (lift_row h p k)
  rw [e]
  rfl

/-- The host's float sum over the last axis, at row `p`: the initial value plus the sum of the row. -/
theorem hostReduceAdd_row {M N : ℕ} (x : (⟨2, ![M, N]⟩ : Shape).Idx → EReal) (init : EReal)
    (h' : (⟨2, ![M, N]⟩ : Shape).ReducesTo [1] ⟨1, ![M]⟩) (h : (⟨2, ![M, N]⟩ : Shape).Reduces [1] ⟨1, ![M]⟩) (p : Fin M) :
    Ideal.hostReduceAdd h' x init (ix1 p) = init + ∑ k : Fin N, x (ix2 p k) := by
  refine (Ideal.hostReduceAdd_single h' h x init (ix1 p)).trans ?_
  exact congrArg (init + ·) (Finset.sum_congr rfl fun k _ => congrArg x (lift_row h p k))

/-- The host's one-operand `maximum` reduction over the last axis, at row `p`: the fold of `max` over the row from the
    initial value. -/
theorem hostReduceMax_row {M N : ℕ} {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single (FloatOps.maximumf (F := Ideal) (φ := .f32)) x init h' h hu (ix1 p)).trans ?_
  have e : (x ∘ h.lift (ix1 p)) = fun k : Fin N => x (ix2 p k) := funext fun k => congrArg x (lift_row h p k)
  rw [e]
  rfl

/-- The fold of `max` from `b` is at least `b`, so taking `max b` of it changes nothing. -/
theorem max_fold_max_self {ι : Type} (s : Finset ι) (b : EReal) (f : ι → EReal) :
    max b (s.fold max b f) = s.fold max b f :=
  max_eq_right ((Finset.le_fold_max b).mpr (Or.inl le_rfl))

end Cert.RowOps

end
-- ==== Proof.Spec.lean ====
/-
  The sparse-gated recurrent cell, one batch row at a time, over the extended reals.

  For a row `xr` of the input (512 entries), a row `hr` of the previous hidden state and a row `ir` of the
  internal input (1024 entries each), and the five weight matrices and the shift `mu`:

    score s   = (⟨xr, W_is[s]⟩ + 1 · ⟨hr, W_hs[s]⟩) / 1                       (s < 4096)
    gate  s   = exp (score s − max_s score) / Σ_s' exp (score s' − max_s score)   — the softmax of the scores
    pre   h   = (1 · ⟨xr, W_ih[h]⟩ + ⟨hr, W_hh[h]⟩) + 1 · ⟨gate, W_sh[h]⟩      (h < 1024)
    mean      = (Σ_h pre h) / 1024
    dev   h   = pre h − mean
    sd        = sqrt ((Σ_h dev h · dev h) / 1024) + eps
    hidden h  = max ((dev h / sd · 1 + mu h) + ir h) 0                           — the layer norm, shift and relu

  The literals are kept as the binary32 words both programs print: they are the same words on both sides and are
  never evaluated.  Every function here is the function of ONE row, so a block of rows and the whole batch read the
  same way.  The second half (`pre` … `hidden`) takes the gate row `g` as an argument.
-/
import Idealize.ShloMosaic.PureOps.Ideal.Laws

noncomputable section

namespace Cert.Spec

open Idealize.ShloMosaic

/-- The words the two programs share. -/
abbrev one : EReal := Ideal.ofBits .f32 0x3F800000#32
abbrev negInf : EReal := Ideal.ofBits .f32 0xFF800000#32
abbrev zero : EReal := Ideal.ofBits .f32 0x00000000#32
abbrev width : EReal := Ideal.ofBits .f32 0x44800000#32
abbrev eps : EReal := Ideal.ofBits .f32 0x38D1B717#32

/-- The inner product of two vectors of the same length. -/
def dot {K : ℕ} (a b : Fin K → EReal) : EReal := ∑ k : Fin K, a k * b k

section Gate

variable (xr : Fin 512 → EReal) (hr : Fin 1024 → EReal)
  (Wis : Fin 4096 → Fin 512 → EReal) (Whs : Fin 4096 → Fin 1024 → EReal)

/-- The gate's score of sparse unit `s`. -/
def score (s : Fin 4096) : EReal := Ideal.div (dot xr (Wis s) + one * dot hr (Whs s)) one

/-- The row's largest score (from `-∞`). -/
def top : EReal := (Finset.univ : Finset (Fin 4096)).fold max negInf (fun s => score xr hr Wis Whs s)

/-- The shifted exponential of a score. -/
def ex (s : Fin 4096) : EReal := Ideal.exp (score xr hr Wis Whs s - top xr hr Wis Whs)

/-- The sparse gate: the softmax of the scores. -/
def gate (s : Fin 4096) : EReal := Ideal.div (ex xr hr Wis Whs s) (∑ s' : Fin 4096, ex xr hr Wis Whs s')

end Gate

section Hidden

variable (xr : Fin 512 → EReal) (hr : Fin 1024 → EReal) (ir : Fin 1024 → EReal) (g : Fin 4096 → EReal)
  (Wsh : Fin 1024 → Fin 4096 → EReal) (Wih : Fin 1024 → Fin 512 → EReal) (Whh : Fin 1024 → Fin 1024 → EReal)
  (mu : Fin 1024 → EReal)

/-- The hidden pre-activation: the direct, recurrent and sparse paths. -/
def pre (h : Fin 1024) : EReal := (one * dot xr (Wih h) + dot hr (Whh h)) + one * dot g (Wsh h)

/-- Its mean over the hidden units. -/
def mean : EReal := Ideal.div (∑ h : Fin 1024, pre xr hr g Wsh Wih Whh h) width

/-- The centred pre-activation. -/
def dev (h : Fin 1024) : EReal := pre xr hr g Wsh Wih Whh h - mean xr hr g Wsh Wih Whh

/-- The biased standard deviation plus `eps`. -/
def sd : EReal :=
  Ideal.sqrt (Ideal.div (∑ h : Fin 1024, dev xr hr g Wsh Wih Whh h * dev xr hr g Wsh Wih Whh h) width) + eps

/-- The new hidden state: normalized, shifted by `mu`, the internal input added, rectified. -/
def hidden (h : Fin 1024) : EReal :=
  max ((Ideal.div (dev xr hr g Wsh Wih Whh h) (sd xr hr g Wsh Wih Whh) * one + mu h) + ir h) zero

end Hidden

end Cert.Spec

end
-- ==== Proof.KernelRow.lean ====
/-
  The kernel's two stored values, read at an entry `(p, ·)` of the block: row `p` of the gate is the softmax of row
  `p`'s scores, and row `p` of the new hidden state is the normalized, shifted, rectified pre-activation of row `p` —
  each a function of row `p` of the loaded blocks and of the resident weights alone.
-/
import proofs.«108395_j41437844472172_2_alg».proof.Proof.Gen.KernelIdeal.Skeleton
import proofs.«108395_j41437844472172_2_alg».proof.Proof.KernelDots
import proofs.«108395_j41437844472172_2_alg».proof.Proof.LibRowOps
import proofs.«108395_j41437844472172_2_alg».proof.Proof.Spec
import Idealize.ShloMosaic.Lib.ValueLayout

noncomputable section

namespace Cert.KernelIdeal.Row

open Cert.KernelIdeal Cert.KernelIdeal.Gen Idealize.ShloMosaic Idealize.ShloMosaic.ValueIdx

/-- The exponential and the square root of a vector, at an index. -/
theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-- Row `p` of the gate block: the softmax of the row's scores against the two resident gate weights. -/
theorem gate_apply (v0 : Vec Ideal S128x512 .f32) (v1 : Vec Ideal S128x1024 .f32) (v7 : Vec Ideal S4096x512 .bf16)
    (v9 : Vec Ideal S4096x1024 .bf16) (p : Fin 128) (s : Fin 4096) :
    k0_pay8 (F := Ideal) v0 v1 v7 v9 (ix2 p s)
      = Spec.gate (fun k => v0 (ix2 p k)) (fun k => v1 (ix2 p k)) (fun s k => v7 (ix2 s k)) (fun s k => v9 (ix2 s k)) s := by
  unfold k0_pay8 k0_pay3 k0_pay4
  simp only [shapeCast_self]
  simp only [divf_apply, addf_apply, subf_apply, mulf_apply, broadcast_apply, exp_apply, truncf_apply,
    Cert.RowOps.broadcastTo_a1_ab_apply, Cert.RowOps.shapeCast_a_a1_apply, Dots.mm_xWis, Dots.mm_hWhs]
  rw [Cert.RowOps.multiReduction_max_row, Cert.RowOps.multiReduction_add_row]
  simp only [divf_apply, addf_apply, subf_apply, mulf_apply, broadcast_apply, exp_apply, truncf_apply,
    Cert.RowOps.broadcastTo_a1_ab_apply, Cert.RowOps.shapeCast_a_a1_apply, Dots.mm_xWis, Dots.mm_hWhs]
  rw [Cert.RowOps.multiReduction_max_row]
  simp only [divf_apply, addf_apply, subf_apply, mulf_apply, broadcast_apply, exp_apply, truncf_apply,
    Cert.RowOps.broadcastTo_a1_ab_apply, Cert.RowOps.shapeCast_a_a1_apply, Dots.mm_xWis, Dots.mm_hWhs]
  simp only [Spec.gate, Spec.ex, Spec.top, Spec.score, Spec.dot]
  rfl

/-- Row `p` of the new hidden state: the layer norm of the row's pre-activation (direct, recurrent and sparse paths
    against the three resident weights), shifted by `mu`, the internal row added, rectified. -/
theorem hidden_apply (v2 : Vec Ideal S128x1024 .f32) (v4 : FVec Ideal S1x1024 .f32) (v5 : FVec Ideal S128x512 .bf16)
    (v6 : FVec Ideal S128x1024 .bf16) (v12 : FVec Ideal S1024x4096 .bf16) (v14 : FVec Ideal S1024x512 .bf16)
    (v16 : FVec Ideal S1024x1024 .bf16) (v33 : FVec Ideal S128x4096 .bf16) (p : Fin 128) (h : Fin 1024) :
    k0_pay1 (F := Ideal) v2 v4 v5 v6 v12 v14 v16 v33 (constant S128x1024 .f32 0x00000000#32) (ix2 p h)
      = Spec.hidden (fun k => v5 (ix2 p k)) (fun k => v6 (ix2 p k)) (fun k => v2 (ix2 p k)) (fun s => v33 (ix2 p s))
          (fun h s => v12 (ix2 h s)) (fun h k => v14 (ix2 h k)) (fun h k => v16 (ix2 h k))
          (fun h => v4 (ix2 (0 : Fin 1) h)) h := by
  unfold k0_pay1
  simp only [divf_apply, addf_apply, subf_apply, mulf_apply, maximumf_apply, broadcast_apply, sqrt_apply,
    Cert.RowOps.broadcastTo_a1_ab_apply, Cert.RowOps.shapeCast_a_a1_apply, broadcastTo_1b_ab_apply,
    Dots.mm_xWih, Dots.mm_hWhh, Dots.mm_gWsh]
  rw [Cert.RowOps.multiReduction_add_row]
  simp only [divf_apply, addf_apply, subf_apply, mulf_apply, maximumf_apply, broadcast_apply, sqrt_apply,
    Cert.RowOps.broadcastTo_a1_ab_apply, Cert.RowOps.shapeCast_a_a1_apply, broadcastTo_1b_ab_apply,
    Dots.mm_xWih, Dots.mm_hWhh, Dots.mm_gWsh]
  rw [Cert.RowOps.multiReduction_add_row]
  simp only [divf_apply, addf_apply, subf_apply, mulf_apply, maximumf_apply, broadcast_apply, sqrt_apply,
    Cert.RowOps.broadcastTo_a1_ab_apply, Cert.RowOps.shapeCast_a_a1_apply, broadcastTo_1b_ab_apply,
    Dots.mm_xWih, Dots.mm_hWhh, Dots.mm_gWsh]
  rw [Cert.RowOps.multiReduction_add_row]
  simp only [divf_apply, addf_apply, subf_apply, mulf_apply, maximumf_apply, broadcast_apply, sqrt_apply,
    Cert.RowOps.broadcastTo_a1_ab_apply, Cert.RowOps.shapeCast_a_a1_apply, broadcastTo_1b_ab_apply,
    Dots.mm_xWih, Dots.mm_hWhh, Dots.mm_gWsh]
  simp only [Spec.hidden, Spec.sd, Spec.dev, Spec.mean, Spec.pre, Spec.dot]
  rfl

end Cert.KernelIdeal.Row

end
-- ==== Proof.KernelBlock.lean ====
/-
  The hidden-state block as the body stores it, read at an entry `(p, h)`, in terms of the nine loaded blocks alone:
  the cell's `hidden` of row `p` of the three batch-tiled blocks, the gate being the softmax of row `p`'s scores.
-/
import proofs.«108395_j41437844472172_2_alg».proof.Proof.KernelOut
import proofs.«108395_j41437844472172_2_alg».proof.Proof.KernelRow

noncomputable section

namespace Cert.KernelIdeal.Block

open Cert.KernelIdeal Cert.KernelIdeal.Gen Idealize.ShloMosaic Idealize.ShloMosaic.ValueIdx

theorem hiddenOf_apply (x0 : Vec Ideal S128x512 .f32) (x1 : Vec Ideal S128x1024 .f32) (x2 : Vec Ideal S128x1024 .f32) (x3 : Vec Ideal S1x1024 .f32)
    (x4 : Vec Ideal S4096x512 .bf16) (x5 : Vec Ideal S4096x1024 .bf16) (x6 : Vec Ideal S1024x4096 .bf16) (x7 : Vec Ideal S1024x512 .bf16)
    (x8 : Vec Ideal S1024x1024 .bf16) (p : Fin 128) (h : Fin 1024) :
    Out.hiddenOf x0 x1 x2 x3 x4 x5 x6 x7 x8 (ix2 p h)
      = Spec.hidden (fun k => x0 (ix2 p k)) (fun k => x1 (ix2 p k)) (fun k => x2 (ix2 p k))
          (fun s => Spec.gate (fun k => x0 (ix2 p k)) (fun k => x1 (ix2 p k)) (fun s k => x4 (ix2 s k)) (fun s k => x5 (ix2 s k)) s)
          (fun h s => x6 (ix2 h s)) (fun h k => x7 (ix2 h k)) (fun h k => x8 (ix2 h k)) (fun h => x3 (ix2 (0 : Fin 1) h)) h := by
  refine (Row.hidden_apply x2 (k0_pay2 x3) (k0_pay3 x0) (k0_pay4 x1) (k0_pay5 x6) (k0_pay6 x7) (k0_pay7 x8)
    (k0_pay9 x0 x1 x4 x5) p h).trans ?_
  simp only [k0_pay2, k0_pay3, k0_pay4, k0_pay5, k0_pay6, k0_pay7, k0_pay9, shapeCast_self, truncf_apply, Row.gate_apply]

end Cert.KernelIdeal.Block

end
-- ==== Proof.KernelInputs.lean ====
/-
  The input blocks the body loads at grid point `t`, read at an entry: rows `128 t … 128 t + 127` of `x`, `hx` and
  `internal`; the whole of `mu` (reshaped to one row) and of the five weight matrices (converted to bf16 by the host
  before the call — the identity on the extended reals).
-/
import proofs.«108395_j41437844472172_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Inputs

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The batch row that row `p` of point `t`'s blocks is. -/
def rowAt (t : Fin cfg0.N) (p : Fin 128) : Fin 4096 :=
  ⟨128 * t.val + p.val, by have := t.isLt; have hN : cfg0.N = 32 := N_0; have := p.isLt; omega⟩

/-- The printed index maps, decided over the 32 grid points: the three batch-tiled inputs and the two outputs sit at
    block `(t, 0)`, the resident operands at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-! ## The arrays the host wrote before the call -/

theorem V_mu (c : Dev nD) : (V m c main_v0 : S1x1024.Idx → Elt F .f32)
    = shapeCast S1x1024 (m ((c : Thread nD τ).loc main_arg8)) shapeCasts_S1024_S1x1024 := by
  dsimp only [Gen.V, Gen.hostOps0]; after_results; rfl
theorem V_wis (c : Dev nD) : (V m c main_v1 : S4096x512.Idx → Elt F .bf16)
    = truncf .bf16 (m ((c : Thread nD τ).loc main_arg4)) bitsLt_bf16_f32 := by
  dsimp only [Gen.V, Gen.hostOps0]; after_results
theorem V_whs (c : Dev nD) : (V m c main_v2 : S4096x1024.Idx → Elt F .bf16)
    = truncf .bf16 (m ((c : Thread nD τ).loc main_arg7)) bitsLt_bf16_f32 := by
  dsimp only [Gen.V, Gen.hostOps0]; after_results
theorem V_wsh (c : Dev nD) : (V m c main_v3 : S1024x4096.Idx → Elt F .bf16)
    = truncf .bf16 (m ((c : Thread nD τ).loc main_arg5)) bitsLt_bf16_f32 := by
  dsimp only [Gen.V, Gen.hostOps0]; after_results
theorem V_wih (c : Dev nD) : (V m c main_v4 : S1024x512.Idx → Elt F .bf16)
    = truncf .bf16 (m ((c : Thread nD τ).loc main_arg3)) bitsLt_bf16_f32 := by
  dsimp only [Gen.V, Gen.hostOps0]; after_results
theorem V_whh (c : Dev nD) : (V m c main_v5 : S1024x1024.Idx → Elt F .bf16)
    = truncf .bf16 (m ((c : Thread nD τ).loc main_arg6)) bitsLt_bf16_f32 := by
  dsimp only [Gen.V, Gen.hostOps0]; after_results

/-! ## The blocks at an entry -/

/-- Row `p` of `x`'s block at point `t` is batch row `128 t + p` of `x`. -/
theorem blk_x (c : Dev nD) (t : Fin cfg0.N) (p : Fin 128) (k : Fin 512) :
    iblk m c 0 t (ix2 p k) = m ((c : Thread nD τ).loc main_arg0) (ix2 (rowAt t p) k) := by
  show V m c main_arg0 (((cfg0.win 0).blk t).view.emb (ix2 p k)) = _
  rw [V_main_arg0]
  refine congrArg _ (funext fun a => Fin.ext ?_)
  obtain ⟨e0, e1⟩ := (idx_facts t).1
  match a with
  | ⟨0, _⟩ => show win0_0.index t (0 : Fin 2) * 128 + 1 * p.val = 128 * t.val + p.val; rw [e0]; omega
  | ⟨1, _⟩ => show win0_0.index t (1 : Fin 2) * 512 + 1 * k.val = k.val; rw [e1]; omega

/-- Row `p` of `hx`'s block at point `t` is batch row `128 t + p` of `hx`. -/
theorem blk_hx (c : Dev nD) (t : Fin cfg0.N) (p : Fin 128) (k : Fin 1024) :
    iblk m c 1 t (ix2 p k) = m ((c : Thread nD τ).loc main_arg2) (ix2 (rowAt t p) k) := by
  show V m c main_arg2 (((cfg0.win 1).blk t).view.emb (ix2 p k)) = _
  rw [V_main_arg2]
  refine congrArg _ (funext fun a => Fin.ext ?_)
  obtain ⟨e0, e1⟩ := (idx_facts t).2.1
  match a with
  | ⟨0, _⟩ => show win0_1.index t (0 : Fin 2) * 128 + 1 * p.val = 128 * t.val + p.val; rw [e0]; omega
  | ⟨1, _⟩ => show win0_1.index t (1 : Fin 2) * 1024 + 1 * k.val = k.val; rw [e1]; omega

/-- Row `p` of `internal`'s block at point `t` is batch row `128 t + p` of `internal`. -/
theorem blk_internal (c : Dev nD) (t : Fin cfg0.N) (p : Fin 128) (k : Fin 1024) :
    iblk m c 2 t (ix2 p k) = m ((c : Thread nD τ).loc main_arg1) (ix2 (rowAt t p) k) := by
  show V m c main_arg1 (((cfg0.win 2).blk t).view.emb (ix2 p k)) = _
  rw [V_main_arg1]
  refine congrArg _ (funext fun a => Fin.ext ?_)
  obtain ⟨e0, e1⟩ := (idx_facts t).2.2.1
  match a with
  | ⟨0, _⟩ => show win0_2.index t (0 : Fin 2) * 128 + 1 * p.val = 128 * t.val + p.val; rw [e0]; omega
  | ⟨1, _⟩ => show win0_2.index t (1 : Fin 2) * 1024 + 1 * k.val = k.val; rw [e1]; omega

section AtIdeal

variable (mI : (ℓ : Loc nD τ sig) → Buf (Elt Ideal) ℓ)

/-- The one row of the reshaped `mu`. -/
theorem blk_mu (c : Dev nD) (t : Fin cfg0.N) (h : Fin 1024) :
    iblk mI c 3 t (ix2 (0 : Fin 1) h) = mI ((c : Thread nD τ).loc main_arg8) (ix1 h) := by
  show V mI c main_v0 (((cfg0.win 3).blk t).view.emb (ix2 (0 : Fin 1) h)) = _
  rw [V_mu]
  have e : ((cfg0.win 3).blk t).view.emb (ix2 (0 : Fin 1) h) = ix2 (0 : Fin 1) h := by
    funext ax; apply Fin.ext
    obtain ⟨e0, e1⟩ := (idx_facts t).2.2.2.1
    match ax with
    | ⟨0, _⟩ => show win0_3.index t (0 : Fin 2) * 1 + 1 * 0 = 0; rw [e0]
    | ⟨1, _⟩ => show win0_3.index t (1 : Fin 2) * 1024 + 1 * h.val = h.val; rw [e1]; omega
  rw [e]
  exact shapeCast_a_1a_apply _ _ (0 : Fin 1) h

/-- The resident block of `W_is` is the whole matrix: the host's conversion to bf16 changes no value. -/
theorem blk_wis (c : Dev nD) (t : Fin cfg0.N) (a : Fin 4096) (b : Fin 512) :
    iblk mI c 4 t (ix2 a b) = mI ((c : Thread nD τ).loc main_arg4) (ix2 a b) := by
  show V mI c main_v1 (((cfg0.win 4).blk t).view.emb (ix2 a b)) = _
  rw [V_wis]
  show mI ((c : Thread nD τ).loc main_arg4) (((cfg0.win 4).blk t).view.emb (ix2 a b)) = _
  refine congrArg _ (funext fun ax => Fin.ext ?_)
  obtain ⟨e0, e1⟩ := (idx_facts t).2.2.2.2.1
  match ax with
  | ⟨0, _⟩ => show win0_4.index t (0 : Fin 2) * 4096 + 1 * a.val = a.val; rw [e0]; omega
  | ⟨1, _⟩ => show win0_4.index t (1 : Fin 2) * 512 + 1 * b.val = b.val; rw [e1]; omega

/-- The resident block of `W_hs` is the whole matrix: the host's conversion to bf16 changes no value. -/
theorem blk_whs (c : Dev nD) (t : Fin cfg0.N) (a : Fin 4096) (b : Fin 1024) :
    iblk mI c 5 t (ix2 a b) = mI ((c : Thread nD τ).loc main_arg7) (ix2 a b) := by
  show V mI c main_v2 (((cfg0.win 5).blk t).view.emb (ix2 a b)) = _
  rw [V_whs]
  show mI ((c : Thread nD τ).loc main_arg7) (((cfg0.win 5).blk t).view.emb (ix2 a b)) = _
  refine congrArg _ (funext fun ax => Fin.ext ?_)
  obtain ⟨e0, e1⟩ := (idx_facts t).2.2.2.2.2.1
  match ax with
  | ⟨0, _⟩ => show win0_5.index t (0 : Fin 2) * 4096 + 1 * a.val = a.val; rw [e0]; omega
  | ⟨1, _⟩ => show win0_5.index t (1 : Fin 2) * 1024 + 1 * b.val = b.val; rw [e1]; omega

/-- The resident block of `W_sh` is the whole matrix: the host's conversion to bf16 changes no value. -/
theorem blk_wsh (c : Dev nD) (t : Fin cfg0.N) (a : Fin 1024) (b : Fin 4096) :
    iblk mI c 6 t (ix2 a b) = mI ((c : Thread nD τ).loc main_arg5) (ix2 a b) := by
  show V mI c main_v3 (((cfg0.win 6).blk t).view.emb (ix2 a b)) = _
  rw [V_wsh]
  show mI ((c : Thread nD τ).loc main_arg5) (((cfg0.win 6).blk t).view.emb (ix2 a b)) = _
  refine congrArg _ (funext fun ax => Fin.ext ?_)
  obtain ⟨e0, e1⟩ := (idx_facts t).2.2.2.2.2.2.1
  match ax with
  | ⟨0, _⟩ => show win0_6.index t (0 : Fin 2) * 1024 + 1 * a.val = a.val; rw [e0]; omega
  | ⟨1, _⟩ => show win0_6.index t (1 : Fin 2) * 4096 + 1 * b.val = b.val; rw [e1]; omega

/-- The resident block of `W_ih` is the whole matrix: the host's conversion to bf16 changes no value. -/
theorem blk_wih (c : Dev nD) (t : Fin cfg0.N) (a : Fin 1024) (b : Fin 512) :
    iblk mI c 7 t (ix2 a b) = mI ((c : Thread nD τ).loc main_arg3) (ix2 a b) := by
  show V mI c main_v4 (((cfg0.win 7).blk t).view.emb (ix2 a b)) = _
  rw [V_wih]
  show mI ((c : Thread nD τ).loc main_arg3) (((cfg0.win 7).blk t).view.emb (ix2 a b)) = _
  refine congrArg _ (funext fun ax => Fin.ext ?_)
  obtain ⟨e0, e1⟩ := (idx_facts t).2.2.2.2.2.2.2.1
  match ax with
  | ⟨0, _⟩ => show win0_7.index t (0 : Fin 2) * 1024 + 1 * a.val = a.val; rw [e0]; omega
  | ⟨1, _⟩ => show win0_7.index t (1 : Fin 2) * 512 + 1 * b.val = b.val; rw [e1]; omega

/-- The resident block of `W_hh` is the whole matrix: the host's conversion to bf16 changes no value. -/
theorem blk_whh (c : Dev nD) (t : Fin cfg0.N) (a : Fin 1024) (b : Fin 1024) :
    iblk mI c 8 t (ix2 a b) = mI ((c : Thread nD τ).loc main_arg6) (ix2 a b) := by
  show V mI c main_v5 (((cfg0.win 8).blk t).view.emb (ix2 a b)) = _
  rw [V_whh]
  show mI ((c : Thread nD τ).loc main_arg6) (((cfg0.win 8).blk t).view.emb (ix2 a b)) = _
  refine congrArg _ (funext fun ax => Fin.ext ?_)
  obtain ⟨e0, e1⟩ := (idx_facts t).2.2.2.2.2.2.2.2.1
  match ax with
  | ⟨0, _⟩ => show win0_8.index t (0 : Fin 2) * 1024 + 1 * a.val = a.val; rw [e0]; omega
  | ⟨1, _⟩ => show win0_8.index t (1 : Fin 2) * 1024 + 1 * b.val = b.val; rw [e1]; omega

end AtIdeal

end Cert.KernelIdeal.Inputs

end
-- ==== Proof.SpecArray.lean ====
/-
  The two results as whole-array functions of the nine argument arrays: entry `(r, ·)` of each is the cell's function of
  batch row `r` of `x`, `hx`, `internal` and of the weights.  The concatenated result holds the new hidden state in its
  first 1024 columns and the gate in its last 4096.
-/
import proofs.«108395_j41437844472172_2_alg».proof.Proof.Spec
import Idealize.ShloMosaic.Lib.ValueIdx

noncomputable section

namespace Cert.Whole

open Idealize.ShloMosaic Idealize.ShloMosaic.ValueIdx

variable (X : (⟨2, ![4096, 512]⟩ : Shape).Idx → EReal) (I HX : (⟨2, ![4096, 1024]⟩ : Shape).Idx → EReal)
  (Wih : (⟨2, ![1024, 512]⟩ : Shape).Idx → EReal) (Wis : (⟨2, ![4096, 512]⟩ : Shape).Idx → EReal)
  (Wsh : (⟨2, ![1024, 4096]⟩ : Shape).Idx → EReal) (Whh : (⟨2, ![1024, 1024]⟩ : Shape).Idx → EReal)
  (Whs : (⟨2, ![4096, 1024]⟩ : Shape).Idx → EReal) (MU : (⟨1, ![1024]⟩ : Shape).Idx → EReal)

/-- The gate of batch row `r`. -/
def gateAt (r : Fin 4096) (s : Fin 4096) : EReal :=
  Spec.gate (fun k => X (ix2 r k)) (fun k => HX (ix2 r k)) (fun s k => Wis (ix2 s k)) (fun s k => Whs (ix2 s k)) s

/-- The new hidden state of batch row `r`. -/
def hiddenAt (r : Fin 4096) (h : Fin 1024) : EReal :=
  Spec.hidden (fun k => X (ix2 r k)) (fun k => HX (ix2 r k)) (fun k => I (ix2 r k)) (fun s => gateAt X HX Wis Whs r s)
    (fun h s => Wsh (ix2 h s)) (fun h k => Wih (ix2 h k)) (fun h k => Whh (ix2 h k)) (fun h => MU (ix1 h)) h

/-- The second result: the new hidden state, [4096, 1024]. -/
def outHidden : (⟨2, ![4096, 1024]⟩ : Shape).Idx → EReal := fun i =>
  hiddenAt X I HX Wih Wis Wsh Whh Whs MU ⟨(i 0).val, (i 0).isLt⟩ ⟨(i 1).val, (i 1).isLt⟩

/-- The first result: hidden state and gate side by side, [4096, 5120]. -/
def outConcat : (⟨2, ![4096, 5120]⟩ : Shape).Idx → EReal := fun i =>
  if h : (i 1).val < 1024 then hiddenAt X I HX Wih Wis Wsh Whh Whs MU ⟨(i 0).val, (i 0).isLt⟩ ⟨(i 1).val, h⟩
  else gateAt X HX Wis Whs ⟨(i 0).val, (i 0).isLt⟩ ⟨(i 1).val - 1024, by have h5 : (i 1).val < 5120 := (i 1).isLt; omega⟩

theorem outHidden_apply (r : Fin 4096) (h : Fin 1024) :
    outHidden X I HX Wih Wis Wsh Whh Whs MU (ix2 r h) = hiddenAt X I HX Wih Wis Wsh Whh Whs MU r h := rfl

theorem outConcat_hidden (r : Fin 4096) (q : Fin 5120) (h : Fin 1024) (hq : q.val = h.val) :
    outConcat X I HX Wih Wis Wsh Whh Whs MU (ix2 r q) = hiddenAt X I HX Wih Wis Wsh Whh Whs MU r h := by
  unfold outConcat
  rw [dif_pos (show ((ix2 r q : (⟨2, ![4096, 5120]⟩ : Shape).Idx) 1).val < 1024 from by show q.val < 1024; rw [hq]; exact h.isLt)]
  exact congrArg (hiddenAt X I HX Wih Wis Wsh Whh Whs MU r) (Fin.ext hq)

theorem outConcat_gate (r : Fin 4096) (q : Fin 5120) (s : Fin 4096) (hq : q.val = 1024 + s.val) :
    outConcat X I HX Wih Wis Wsh Whh Whs MU (ix2 r q) = gateAt X HX Wis Whs r s := by
  unfold outConcat
  rw [dif_neg (show ¬ ((ix2 r q : (⟨2, ![4096, 5120]⟩ : Shape).Idx) 1).val < 1024 from by
    show ¬ (q.val < 1024); omega)]
  refine congrArg (gateAt X HX Wis Whs r) (Fin.ext ?_)
  show q.val - 1024 = s.val
  omega

end Cert.Whole

end
-- ==== Proof.KernelArray.lean ====
/-
  From blocks to arrays.  At every grid point `t` the two blocks the kernel writes back are blocks `t` of the two
  whole-array results (`Whole.outConcat`, `Whole.outHidden` of the nine arguments): a block's row `p` is batch row
  `128 t + p`, and its entries are the cell's functions of that row.  The 32 blocks tile each array, so after the run
  the arrays ARE those functions.
-/
import proofs.«108395_j41437844472172_2_alg».proof.Proof.Gen.KernelIdeal.Value
import proofs.«108395_j41437844472172_2_alg».proof.Proof.KernelBlock
import proofs.«108395_j41437844472172_2_alg».proof.Proof.KernelInputs
import proofs.«108395_j41437844472172_2_alg».proof.Proof.SpecArray

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Inputs (rowAt)

variable (m : (ℓ : Loc nD τ sig) → Buf (Elt Ideal) ℓ) (ρ : Dev nD → PrngReg)

/-- The second result as a function of the launch contents of the nine arguments. -/
abbrev hiddenArr (c : Dev nD) : S4096x1024.Idx → EReal :=
  Cert.Whole.outHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The first result likewise. -/
abbrev concatArr (c : Dev nD) : S4096x5120.Idx → EReal :=
  Cert.Whole.outConcat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Row `p` of point `t`'s hidden-state block is batch row `128 t + p`'s hidden state. -/
theorem hidden_at (c : Dev nD) (t : Fin cfg0.N) (p : Fin 128) (h : Fin 1024) :
    Out.hiddenOf (iblk m c 0 t) (iblk m c 1 t) (iblk m c 2 t) (iblk m c 3 t) (iblk m c 4 t) (iblk m c 5 t) (iblk m c 6 t) (iblk m c 7 t) (iblk m c 8 t) (ix2 p h)
      = Cert.Whole.hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowAt t p) h := by
  rw [Block.hiddenOf_apply]
  unfold Cert.Whole.hiddenAt Cert.Whole.gateAt
  simp only [Inputs.blk_x, Inputs.blk_hx, Inputs.blk_internal, Inputs.blk_mu, Inputs.blk_wis, Inputs.blk_whs, Inputs.blk_wsh, Inputs.blk_wih, Inputs.blk_whh]

/-- Row `p` of point `t`'s gate is batch row `128 t + p`'s gate. -/
theorem gate_at (c : Dev nD) (t : Fin cfg0.N) (p : Fin 128) (s : Fin 4096) :
    k0_pay8 (iblk m c 0 t) (iblk m c 1 t) (iblk m c 4 t) (iblk m c 5 t) (ix2 p s)
      = Cert.Whole.gateAt (m ((c : Thread nD τ).loc main_arg0)) (m ((c : Thread nD τ).loc main_arg2))
          (m ((c : Thread nD τ).loc main_arg4)) (m ((c : Thread nD τ).loc main_arg7)) (rowAt t p) s := by
  rw [Row.gate_apply]
  unfold Cert.Whole.gateAt
  simp only [Inputs.blk_x, Inputs.blk_hx, Inputs.blk_internal, Inputs.blk_mu, Inputs.blk_wis, Inputs.blk_whs, Inputs.blk_wsh, Inputs.blk_wih, Inputs.blk_whh]

/-! ## The hidden-state array (window 10) -/

theorem flushed10_eq (c : Dev nD) (t : Fin cfg0.N) :
    (dats m 0 c).flushed 10 t = ((cfg0.win 10).blk t).view.read (Elt Ideal) (hiddenArr m c) := by
  rw [Value.flushed10_A, Out.out10]
  funext j
  obtain ⟨p, h, rfl⟩ : ∃ (p : Fin 128) (h : Fin 1024), j = ix2 p h := ⟨j 0, j 1, eq_ix2 j⟩
  show Out.hiddenOf (iblk m c 0 t) (iblk m c 1 t) (iblk m c 2 t) (iblk m c 3 t) (iblk m c 4 t) (iblk m c 5 t) (iblk m c 6 t) (iblk m c 7 t) (iblk m c 8 t) (ix2 p h) = hiddenArr m c (((cfg0.win 10).blk t).view.emb (ix2 p h))
  have e : ((cfg0.win 10).blk t).view.emb (ix2 p h) = ix2 (rowAt t p) h := by
    funext a; apply Fin.ext
    obtain ⟨e0, e1⟩ := (Inputs.idx_facts t).2.2.2.2.2.2.2.2.2.2
    match a with
    | ⟨0, _⟩ => show win0_10.index t (0 : Fin 2) * 128 + 1 * p.val = 128 * t.val + p.val; rw [e0]; omega
    | ⟨1, _⟩ => show win0_10.index t (1 : Fin 2) * 1024 + 1 * h.val = h.val; rw [e1]; omega
  rw [e]
  exact hidden_at m c t p h

/-- An index of the array is in point `t`'s block iff each coordinate is in the block's range on its axis. -/
theorem mem_blk10 (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v6_1).slice (win0_10.rect t)).set ↔ _
  rw [View.set_slice_whole, Rect.mem_set_unit]
  exact Iff.rfl

/-- Batch row `r` lies in the block of point `r / 128`. -/
theorem cover10 (i : S4096x1024.Idx) : ∃ t : Fin cfg0.N, (cfg0.win 10).flush t = true ∧ i ∈ ((cfg0.win 10).blk t).view.set := by
  have hN : cfg0.N = 32 := N_0
  have hi0 : (i 0).val < 4096 := (i 0).isLt
  have hi1 : (i 1).val < 1024 := (i 1).isLt
  refine ⟨⟨(i 0).val / 128, by rw [hN]; omega⟩, flush0_10 _, ?_⟩
  rw [mem_blk10]
  intro a
  obtain ⟨e0, e1⟩ := (Inputs.idx_facts ⟨(i 0).val / 128, by rw [hN]; omega⟩).2.2.2.2.2.2.2.2.2.2
  match a with
  | ⟨0, _⟩ => show win0_10.index _ (0 : Fin 2) * 128 ≤ (i 0).val ∧ (i 0).val < win0_10.index _ (0 : Fin 2) * 128 + 128; rw [e0]; show (i 0).val / 128 * 128 ≤ _ ∧ _ < (i 0).val / 128 * 128 + 128; omega
  | ⟨1, _⟩ => show win0_10.index _ (1 : Fin 2) * 1024 ≤ (i 1).val ∧ (i 1).val < win0_10.index _ (1 : Fin 2) * 1024 + 1024; rw [e1]; omega

theorem final10 (c : Dev nD) : (dats m 0 c).arrAt 10 cfg0.N = hiddenArr m c :=
  (dats m 0 c).arrAt_eq_of_cover 10 (hiddenArr m c) (fun t _ => flushed10_eq m c t) cover10

/-! ## The concatenated array (window 9) -/

theorem flushed9_eq (c : Dev nD) (t : Fin cfg0.N) :
    (dats m 0 c).flushed 9 t = ((cfg0.win 9).blk t).view.read (Elt Ideal) (concatArr m c) := by
  rw [Value.flushed9_A]
  funext j
  obtain ⟨p, q, rfl⟩ : ∃ (p : Fin 128) (q : Fin 5120), j = ix2 p q := ⟨j 0, j 1, eq_ix2 j⟩
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (ix2 p q)
    = concatArr m c (((cfg0.win 9).blk t).view.emb (ix2 p q))
  have e : ((cfg0.win 9).blk t).view.emb (ix2 p q) = ix2 (rowAt t p) q := by
    funext a; apply Fin.ext
    obtain ⟨e0, e1⟩ := (Inputs.idx_facts t).2.2.2.2.2.2.2.2.2.1
    match a with
    | ⟨0, _⟩ => show win0_9.index t (0 : Fin 2) * 128 + 1 * p.val = 128 * t.val + p.val; rw [e0]; omega
    | ⟨1, _⟩ => show win0_9.index t (1 : Fin 2) * 5120 + 1 * q.val = q.val; rw [e1]; omega
  rw [e]
  by_cases hq : q.val < 1024
  · exact (Out.out9_hidden c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) p q ⟨q.val, hq⟩ rfl).trans
      ((hidden_at m c t p ⟨q.val, hq⟩).trans (Cert.Whole.outConcat_hidden _ _ _ _ _ _ _ _ _ (rowAt t p) q ⟨q.val, hq⟩ rfl).symm)
  · have hq5 : q.val < 5120 := q.isLt
    have hs : q.val = 1024 + (q.val - 1024) := by omega
    exact (Out.out9_gate c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) p q ⟨q.val - 1024, by omega⟩ hs).trans
      ((gate_at m c t p ⟨q.val - 1024, by omega⟩).trans (Cert.Whole.outConcat_gate _ _ _ _ _ _ _ _ _ (rowAt t p) q ⟨q.val - 1024, by omega⟩ hs).symm)

theorem mem_blk9 (t : Fin cfg0.N) (i : S4096x5120.Idx) :
    i ∈ ((cfg0.win 9).blk t).view.set ↔ ∀ a : Fin 2, win0_9.index t a * S128x5120.size a ≤ (i a).val ∧ (i a).val < win0_9.index t a * S128x5120.size a + S128x5120.size a := by
  show i ∈ ((View.whole main_v6_0).slice (win0_9.rect t)).set ↔ _
  rw [View.set_slice_whole, Rect.mem_set_unit]
  exact Iff.rfl

theorem cover9 (i : S4096x5120.Idx) : ∃ t : Fin cfg0.N, (cfg0.win 9).flush t = true ∧ i ∈ ((cfg0.win 9).blk t).view.set := by
  have hN : cfg0.N = 32 := N_0
  have hi0 : (i 0).val < 4096 := (i 0).isLt
  have hi1 : (i 1).val < 5120 := (i 1).isLt
  refine ⟨⟨(i 0).val / 128, by rw [hN]; omega⟩, flush0_9 _, ?_⟩
  rw [mem_blk9]
  intro a
  obtain ⟨e0, e1⟩ := (Inputs.idx_facts ⟨(i 0).val / 128, by rw [hN]; omega⟩).2.2.2.2.2.2.2.2.2.1
  match a with
  | ⟨0, _⟩ => show win0_9.index _ (0 : Fin 2) * 128 ≤ (i 0).val ∧ (i 0).val < win0_9.index _ (0 : Fin 2) * 128 + 128; rw [e0]; show (i 0).val / 128 * 128 ≤ _ ∧ _ < (i 0).val / 128 * 128 + 128; omega
  | ⟨1, _⟩ => show win0_9.index _ (1 : Fin 2) * 5120 ≤ (i 1).val ∧ (i 1).val < win0_9.index _ (1 : Fin 2) * 5120 + 5120; rw [e1]; omega

theorem final9 (c : Dev nD) : (dats m 0 c).arrAt 9 cfg0.N = concatArr m c :=
  (dats m 0 c).arrAt_eq_of_cover 9 (concatArr m c) (fun t _ => flushed9_eq m c t) cover9

/-! ## The run, read -/

/-- Every weakly fair execution of the idealized kernel's @main terminates with the two result arrays at the cell's
    whole-array functions of the arguments, the arguments unchanged. -/
theorem run : θ_run defs (onTc (τ := τ) (main (F := Ideal))) ⟨m, fun _ => 0, ρ⟩ fun r => ∀ c : Dev nD,
      r.2.mem ((c : Thread nD τ).loc main_v6_0) = concatArr m c
      ∧ r.2.mem ((c : Thread nD τ).loc main_v6_1) = hiddenArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.Arr

end
-- ==== Proof.RefValue.lean ====
/-
  The reference, read one batch row at a time.  Its stages are the cell's formulas of the whole arrays: the scores
  `x @ W_is.T + 1 · (hx @ W_hs.T)` over `1`, their row maximum (taken once more against `-∞`, which changes nothing), the
  shifted exponentials, their row sum from `0` (the host's sum starts from its initial value: `0 + Σ`), the gate; then the
  pre-activation, its mean and variance over the 1024 hidden units, the normalization, the shift by `mu` and the relu.
  Entry `(r, ·)` of every stage depends on batch row `r` alone, and is the row formula of `Cert.Spec` there.
-/
import proofs.«108395_j41437844472172_2_alg».proof.Proof.ReadP
import proofs.«108395_j41437844472172_2_alg».proof.Proof.LibRowOps
import proofs.«108395_j41437844472172_2_alg».proof.Proof.SpecArray

noncomputable section

namespace Cert.ReferenceIdeal.RefValue

open Cert.ReferenceIdeal Cert.ReferenceIdeal.Gen Cert.ReferenceIdeal.Read Idealize.ShloMosaic Idealize.ShloMosaic.ValueIdx

/-- An index of a rank-2 shape with coordinates `a`, `b` is `ix2 a b`; likewise at rank 1. -/
theorem ix2_eq {n0 n1 : ℕ} (j : (⟨2, ![n0, n1]⟩ : Shape).Idx) (a : Fin n0) (b : Fin n1) (h0 : (j 0).val = a.val)
    (h1 : (j 1).val = b.val) : j = ix2 a b :=
  funext fun d => Fin.ext (by match d with | ⟨0, _⟩ => exact h0 | ⟨1, _⟩ => exact h1)
theorem ix1_eq {n0 : ℕ} (j : (⟨1, ![n0]⟩ : Shape).Idx) (a : Fin n0) (h0 : (j 0).val = a.val) : j = ix1 a :=
  funext fun d => Fin.ext (by match d with | ⟨0, _⟩ => exact h0)

/-- The two words the host's reductions start from. -/
theorem zero_word : Ideal.ofBits .f32 0x00000000#32 = 0 := Ideal.ofBits_zero_f32

section Gate

variable (x0 : (⟨S4096x512, .f32⟩ : BufTy).Contents (Elt Ideal)) (x2 : (⟨S4096x1024, .f32⟩ : BufTy).Contents (Elt Ideal)) (x4 : (⟨S4096x512, .f32⟩ : BufTy).Contents (Elt Ideal)) (x7 : (⟨S4096x1024, .f32⟩ : BufTy).Contents (Elt Ideal))

/-- The score of sparse unit `s` for batch row `r`. -/
theorem score_ref (r s : Fin 4096) :
    val_main_v8 (F := Ideal) x0 x2 x4 x7 (ix2 r s) = Cert.Spec.score (fun k => x0 (ix2 r k)) (fun k => x2 (ix2 r k)) (fun s k => x4 (ix2 s k)) (fun s k => x7 (ix2 s k)) s := by
  have l1 : ∀ k, lidx_main_v1 (ix2 r s) k = ix2 r k := fun k => ix2_eq _ _ _ rfl rfl
  have r1 : ∀ k, idx_main_v0 (ridx_main_v1 (ix2 r s) k) = ix2 s k := fun k => ix2_eq _ _ _ rfl rfl
  have l3 : ∀ k, lidx_main_v3 (ix2 r s) k = ix2 r k := fun k => ix2_eq _ _ _ rfl rfl
  have r3 : ∀ k, idx_main_v2 (ridx_main_v3 (ix2 r s) k) = ix2 s k := fun k => ix2_eq _ _ _ rfl rfl
  rw [val_main_v8_apply, val_main_v6_apply, val_main_v5_apply, val_main_v1_apply, val_main_v3_apply, val_main_v4_apply,
    val_main_v7_apply]
  simp only [val_main_v0_apply, val_main_v2_apply, l1, r1, l3, r3]
  rfl

/-- The largest score of batch row `r`. -/
theorem top_ref (r : Fin 4096) :
    val_main_v11 (F := Ideal) x0 x2 x4 x7 (ix1 r) = Cert.Spec.top (fun k => x0 (ix2 r k)) (fun k => x2 (ix2 r k)) (fun s k => x4 (ix2 s k)) (fun s k => x7 (ix2 s k)) := by
  have h9 : val_main_v9 (F := Ideal) x0 x2 x4 x7 (ix1 r)
      = (Finset.univ : Finset (Fin 4096)).fold max (val_main_cst_1 (F := Ideal) (Shape.Idx.first h_S_))
          (fun s => val_main_v8 (F := Ideal) x0 x2 x4 x7 (ix2 r s)) := by
    unfold val_main_v9
    exact Cert.RowOps.hostReduceMax_row _ _ reducesTo_S4096x4096_S4096_d1 (by decide) h_S_ r
  have hf : (fun s => val_main_v8 (F := Ideal) x0 x2 x4 x7 (ix2 r s))
      = fun s => Cert.Spec.score (fun k => x0 (ix2 r k)) (fun k => x2 (ix2 r k)) (fun s k => x4 (ix2 s k)) (fun s k => x7 (ix2 s k)) s := funext fun s => score_ref x0 x2 x4 x7 r s
  rw [val_main_v11_apply, val_main_v10_apply, h9, hf]
  exact Cert.RowOps.max_fold_max_self _ _ _

/-- The shifted exponential. -/
theorem ex_ref (r s : Fin 4096) :
    val_main_v15 (F := Ideal) x0 x2 x4 x7 (ix2 r s) = Cert.Spec.ex (fun k => x0 (ix2 r k)) (fun k => x2 (ix2 r k)) (fun s k => x4 (ix2 s k)) (fun s k => x7 (ix2 s k)) s := by
  have e : idx_main_v12 (idx_main_v13 (ix2 r s)) = ix1 r := ix1_eq _ _ rfl
  rw [val_main_v15_apply, val_main_v14_apply, val_main_v13_apply, val_main_v12_apply, e, top_ref, score_ref]
  rfl

/-- The gate of batch row `r`. -/
theorem gate_ref (r s : Fin 4096) :
    val_main_v19 (F := Ideal) x0 x2 x4 x7 (ix2 r s) = Cert.Whole.gateAt x0 x2 x4 x7 r s := by
  have e : ∀ k, idx_main_v16 (idx_main_v17 (idx_main_v18 (ix2 r s))) k = ix2 r k := fun k => ix2_eq _ _ _ rfl rfl
  rw [val_main_v19_apply, val_main_v18_apply, val_main_v17_apply, val_main_v16_apply, ex_ref]
  simp only [e, ex_ref]
  show Ideal.div _ (Ideal.ofBits .f32 0x00000000#32 + _) = _
  rw [zero_word, zero_add]
  rfl

end Gate

section Hidden

variable (x0 : (⟨S4096x512, .f32⟩ : BufTy).Contents (Elt Ideal)) (x1 : (⟨S4096x1024, .f32⟩ : BufTy).Contents (Elt Ideal)) (x2 : (⟨S4096x1024, .f32⟩ : BufTy).Contents (Elt Ideal)) (x3 : (⟨S1024x512, .f32⟩ : BufTy).Contents (Elt Ideal)) (x4 : (⟨S4096x512, .f32⟩ : BufTy).Contents (Elt Ideal)) (x5 : (⟨S1024x4096, .f32⟩ : BufTy).Contents (Elt Ideal)) (x6 : (⟨S1024x1024, .f32⟩ : BufTy).Contents (Elt Ideal)) (x7 : (⟨S4096x1024, .f32⟩ : BufTy).Contents (Elt Ideal)) (x8 : (⟨S1024, .f32⟩ : BufTy).Contents (Elt Ideal))

/-- The pre-activation of hidden unit `h` for batch row `r`. -/
theorem pre_ref (r : Fin 4096) (h : Fin 1024) :
    val_main_v31 (F := Ideal) x0 x2 x3 x4 x5 x6 x7 (ix2 r h) = Cert.Spec.pre (fun k => x0 (ix2 r k)) (fun k => x2 (ix2 r k)) (fun s => Cert.Whole.gateAt x0 x2 x4 x7 r s) (fun h s => x5 (ix2 h s)) (fun h k => x3 (ix2 h k)) (fun h k => x6 (ix2 h k)) h := by
  have l21 : ∀ k, lidx_main_v21 (ix2 r h) k = ix2 r k := fun k => ix2_eq _ _ _ rfl rfl
  have r21 : ∀ k, idx_main_v20 (ridx_main_v21 (ix2 r h) k) = ix2 h k := fun k => ix2_eq _ _ _ rfl rfl
  have l25 : ∀ k, lidx_main_v25 (ix2 r h) k = ix2 r k := fun k => ix2_eq _ _ _ rfl rfl
  have r25 : ∀ k, idx_main_v24 (ridx_main_v25 (ix2 r h) k) = ix2 h k := fun k => ix2_eq _ _ _ rfl rfl
  have l28 : ∀ k, lidx_main_v28 (ix2 r h) k = ix2 r k := fun k => ix2_eq _ _ _ rfl rfl
  have r28 : ∀ k, idx_main_v27 (ridx_main_v28 (ix2 r h) k) = ix2 h k := fun k => ix2_eq _ _ _ rfl rfl
  rw [val_main_v31_apply, val_main_v26_apply, val_main_v30_apply, val_main_v23_apply, val_main_v21_apply, val_main_v25_apply,
    val_main_v28_apply, val_main_v22_apply, val_main_v29_apply]
  simp only [val_main_v20_apply, val_main_v24_apply, val_main_v27_apply, l21, r21, l25, r25, l28, r28, gate_ref]
  rfl

/-- The mean of the pre-activation over the hidden units. -/
theorem mean_ref (r : Fin 4096) (u : Fin 1) :
    val_main_v35 (F := Ideal) x0 x2 x3 x4 x5 x6 x7 (ix2 r u) = Cert.Spec.mean (fun k => x0 (ix2 r k)) (fun k => x2 (ix2 r k)) (fun s => Cert.Whole.gateAt x0 x2 x4 x7 r s) (fun h s => x5 (ix2 h s)) (fun h k => x3 (ix2 h k)) (fun h k => x6 (ix2 h k)) := by
  have e : ∀ k, idx_main_v32 (idx_main_v33 (ix2 r u)) k = ix2 r k := fun k => ix2_eq _ _ _ rfl rfl
  rw [val_main_v35_apply, val_main_v33_apply, val_main_v32_apply, val_main_v34_apply]
  simp only [e, pre_ref]
  show Ideal.div (Ideal.ofBits .f32 0x00000000#32 + _) _ = _
  rw [zero_word, zero_add]
  rfl

/-- The centred pre-activation, as the variance reads it … -/
theorem dev_ref (r : Fin 4096) (h : Fin 1024) :
    val_main_v37 (F := Ideal) x0 x2 x3 x4 x5 x6 x7 (ix2 r h) = Cert.Spec.dev (fun k => x0 (ix2 r k)) (fun k => x2 (ix2 r k)) (fun s => Cert.Whole.gateAt x0 x2 x4 x7 r s) (fun h s => x5 (ix2 h s)) (fun h k => x3 (ix2 h k)) (fun h k => x6 (ix2 h k)) h := by
  have e : idx_main_v36 (ix2 r h) = ix2 r (0 : Fin 1) := ix2_eq _ _ _ rfl rfl
  rw [val_main_v37_apply, val_main_v36_apply, e, mean_ref, pre_ref]
  rfl

/-- … and as the normalization reads it (the program subtracts the mean twice). -/
theorem dev_ref' (r : Fin 4096) (h : Fin 1024) :
    val_main_v47 (F := Ideal) x0 x2 x3 x4 x5 x6 x7 (ix2 r h) = Cert.Spec.dev (fun k => x0 (ix2 r k)) (fun k => x2 (ix2 r k)) (fun s => Cert.Whole.gateAt x0 x2 x4 x7 r s) (fun h s => x5 (ix2 h s)) (fun h k => x3 (ix2 h k)) (fun h k => x6 (ix2 h k)) h := by
  have e : idx_main_v46 (ix2 r h) = ix2 r (0 : Fin 1) := ix2_eq _ _ _ rfl rfl
  rw [val_main_v47_apply, val_main_v46_apply, e, mean_ref, pre_ref]
  rfl

/-- The biased standard deviation plus `eps`. -/
theorem sd_ref (r : Fin 4096) (u : Fin 1) :
    val_main_v45 (F := Ideal) x0 x2 x3 x4 x5 x6 x7 (ix2 r u) = Cert.Spec.sd (fun k => x0 (ix2 r k)) (fun k => x2 (ix2 r k)) (fun s => Cert.Whole.gateAt x0 x2 x4 x7 r s) (fun h s => x5 (ix2 h s)) (fun h k => x3 (ix2 h k)) (fun h k => x6 (ix2 h k)) := by
  have e : ∀ k, idx_main_v39 (idx_main_v40 (ix2 r u)) k = ix2 r k := fun k => ix2_eq _ _ _ rfl rfl
  rw [val_main_v45_apply, val_main_v43_apply, val_main_v42_apply, val_main_v40_apply, val_main_v39_apply, val_main_v41_apply,
    val_main_v44_apply]
  simp only [e, val_main_v38_apply, dev_ref]
  show Ideal.sqrt (Ideal.div (Ideal.ofBits .f32 0x00000000#32 + _) _) + _ = _
  rw [zero_word, zero_add]
  rfl

/-- The new hidden state of batch row `r`. -/
theorem hidden_ref (r : Fin 4096) (h : Fin 1024) :
    val_main_v56 (F := Ideal) x0 x1 x2 x3 x4 x5 x6 x7 x8 (ix2 r h) = Cert.Whole.hiddenAt x0 x1 x2 x3 x4 x5 x6 x7 x8 r h := by
  have e48 : idx_main_v48 (ix2 r h) = ix2 r (0 : Fin 1) := ix2_eq _ _ _ rfl rfl
  have e53 : idx_main_v52 (idx_main_v53 (ix2 r h)) = ix1 h := ix1_eq _ _ rfl
  rw [val_main_v56_apply, val_main_v55_apply, val_main_v54_apply, val_main_v51_apply, val_main_v49_apply, val_main_v48_apply,
    val_main_v53_apply, val_main_v52_apply, val_main_v50_apply, val_main_call0_v0_apply, e48, e53, sd_ref, dev_ref']
  rfl

end Hidden

section Results

variable (x0 : (⟨S4096x512, .f32⟩ : BufTy).Contents (Elt Ideal)) (x1 : (⟨S4096x1024, .f32⟩ : BufTy).Contents (Elt Ideal)) (x2 : (⟨S4096x1024, .f32⟩ : BufTy).Contents (Elt Ideal)) (x3 : (⟨S1024x512, .f32⟩ : BufTy).Contents (Elt Ideal)) (x4 : (⟨S4096x512, .f32⟩ : BufTy).Contents (Elt Ideal)) (x5 : (⟨S1024x4096, .f32⟩ : BufTy).Contents (Elt Ideal)) (x6 : (⟨S1024x1024, .f32⟩ : BufTy).Contents (Elt Ideal)) (x7 : (⟨S4096x1024, .f32⟩ : BufTy).Contents (Elt Ideal)) (x8 : (⟨S1024, .f32⟩ : BufTy).Contents (Elt Ideal))

/-- The second result is the whole-array hidden state. -/
theorem hidden_eq : val_main_v56 (F := Ideal) x0 x1 x2 x3 x4 x5 x6 x7 x8 = Cert.Whole.outHidden x0 x1 x2 x3 x4 x5 x6 x7 x8 := by
  funext i
  obtain ⟨r, h, rfl⟩ : ∃ (r : Fin 4096) (h : Fin 1024), i = ix2 r h := ⟨i 0, i 1, eq_ix2 i⟩
  exact hidden_ref x0 x1 x2 x3 x4 x5 x6 x7 x8 r h

/-- The first result is the hidden state and the gate side by side: the host's concatenation along the columns reads
    its first operand left of column 1024 and its second, 1024 columns back, from there on. -/
theorem concat_eq : val_main_v57 (F := Ideal) x0 x1 x2 x3 x4 x5 x6 x7 x8 = Cert.Whole.outConcat x0 x1 x2 x3 x4 x5 x6 x7 x8 := by
  funext i
  obtain ⟨r, q, rfl⟩ : ∃ (r : Fin 4096) (q : Fin 5120), i = ix2 r q := ⟨i 0, i 1, eq_ix2 i⟩
  unfold val_main_v57
  by_cases hq : q.val < 1024
  · refine (concatenate_pair_apply_left (1 : Fin S4096x5120.rank) _ _ concatenates_S4096x1024_S4096x4096_S4096x5120_d1
      (ix2 r q) rfl (ix2 r (⟨q.val, hq⟩ : Fin 1024)) (fun b => ?_)).trans ?_
    · match b with
      | ⟨0, _⟩ => rfl
      | ⟨1, _⟩ => rfl
    · exact (hidden_ref x0 x1 x2 x3 x4 x5 x6 x7 x8 r ⟨q.val, hq⟩).trans
        (Cert.Whole.outConcat_hidden x0 x1 x2 x3 x4 x5 x6 x7 x8 r q ⟨q.val, hq⟩ rfl).symm
  · have hq5 : q.val < 5120 := q.isLt
    have hs : q.val = 1024 + (q.val - 1024) := by omega
    refine (concatenate_pair_apply_right (1 : Fin S4096x5120.rank) _ _ concatenates_S4096x1024_S4096x4096_S4096x5120_d1
      (ix2 r q) rfl rfl (ix2 r (⟨q.val - 1024, by omega⟩ : Fin 4096)) (fun b hb => ?_) ?_).trans ?_
    · match b with
      | ⟨0, _⟩ => rfl
      | ⟨1, _⟩ => exact absurd rfl hb
    · show q.val - 1024 + 1024 = q.val; omega
    · exact (gate_ref x0 x2 x4 x7 r ⟨q.val - 1024, by omega⟩).trans
        (Cert.Whole.outConcat_gate x0 x1 x2 x3 x4 x5 x6 x7 x8 r q ⟨q.val - 1024, by omega⟩ hs).symm

end Results

end Cert.ReferenceIdeal.RefValue

end
-- ==== Proof.lean ====
/-
  Kernel `forward` against `reference`: a sparse-gated recurrent cell over a batch of 4096 rows.

  Per batch row both programs compute, over the extended reals, the same formulas (module Proof/Spec.lean): the softmax
  gate of the scores `x W_is^T + h W_hs^T`, then the layer-normalized, shifted and rectified pre-activation
  `x W_ih^T + h W_hh^T + gate W_sh^T`.  The kernel works on 32 blocks of 128 rows with the five weight matrices
  resident (converted to bf16 by the host first: no change of value on the extended reals) and stores the hidden
  state twice — alone, and as the first 1024 columns of the block whose last 4096 columns are the gate; the reference
  works on whole arrays and concatenates at the end.  The two results are therefore the same two whole-array functions
  (Proof/SpecArray.lean) of arguments that agree:

    * the kernel's arrays, block by block (Proof/KernelArray.lean): each stored block read at an entry is the row
      formula of that batch row (Proof/KernelRow.lean, over the body's arithmetic; Proof/KernelOut.lean, what the
      body's three stores leave; Proof/KernelInputs.lean, which rows a block holds), and the 32 blocks tile each array;
    * the reference's arrays (Proof/RefValue.lean): each stage read at an entry; the host's sums start from an
      initial `0` and its row maximum is taken once more against `-∞`, neither of which changes a value.

  No step uses that the inputs are finite: both sides apply the same operations in the same order to the same
  entries, and the only laws used are `0 + a = a` and `max b (fold max b f) = fold max b f`.
  The three frames are the generated ones (the reference's is its run with the results dropped); the idealization
  rewrote nothing, so `preserves` is `True`.
-/
import proofs.«108395_j41437844472172_2_alg».proof.Defs
import proofs.«108395_j41437844472172_2_alg».proof.Proof.Gen.Kernel
import proofs.«108395_j41437844472172_2_alg».proof.Proof.Gen.Kernel.Frame
import proofs.«108395_j41437844472172_2_alg».proof.Proof.Gen.KernelIdeal
import proofs.«108395_j41437844472172_2_alg».proof.Proof.Gen.KernelIdeal.Frame
import proofs.«108395_j41437844472172_2_alg».proof.Proof.Gen.ReferenceIdeal
import proofs.«108395_j41437844472172_2_alg».proof.Proof.Gen.Pre_finite_inputs
import proofs.«108395_j41437844472172_2_alg».proof.Proof.KernelArray
import proofs.«108395_j41437844472172_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the two whole-array functions of the arguments; the arguments agree. -/
theorem algebraic : Cert.algebraic_KernelIdeal_ReferenceIdeal := by
  intro m ρ m' ρ' _ hagree
  refine ⟨fun c => Cert.KernelIdeal.Arr.concatArr m c, fun c => Cert.KernelIdeal.Arr.hiddenArr m c,
    Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v57_eq, a0, a1, a2, a3, a4, a5, a6, a7, a8]
    exact Cert.ReferenceIdeal.RefValue.concat_eq _ _ _ _ _ _ _ _ _
  · obtain ⟨a0, a1, a2, a3, a4, a5, a6, a7, a8⟩ := hagree c
    rw [Cert.ReferenceIdeal.Read.val_main_v56_eq, a0, a1, a2, a3, a4, a5, a6, a7, a8]
    exact Cert.ReferenceIdeal.RefValue.hidden_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
